-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x260 : Shape := ⟨3, ![1, 1024, 260]⟩
abbrev S_ : Shape := ⟨0, ![]⟩

class Facts : Prop where
  bcast_S_S1x1024x260 : S_.BroadcastsInDim S1x1024x260 (![] : Fin 0 → Fin S1x1024x260.rank)
  reducesTo_S1x1024x260_S_d0_1_2 : S1x1024x260.ReducesTo [0, 1, 2] S_
  h_S_ : 0 < S_.numel

variable [Facts]

def fn {F : FTy → Type} [FloatOps F] (main_arg0 : FVec F S1x1024x260 .f32) : IVec S_ 1 :=
  let main_v0 : FVec F S1x1024x260 .f32 := Host.absf main_arg0
  let main_cst : FVec F S_ .f32 := constant S_ .f32 0x7F800000#32
  let main_v1 : FVec F S1x1024x260 .f32 := broadcastInDim S1x1024x260 ![] bcast_S_S1x1024x260 main_cst
  let main_v2 : IVec S1x1024x260 1 := cmpf .olt main_v0 main_v1
  let main_c : IVec S_ 1 := constantI S_ 1 1#1
  let main_v3 : IVec S_ 1 := (fun x v => Host.reduce IntOp.andi x v reducesTo_S1x1024x260_S_d0_1_2 h_S_) main_v2 main_c
  main_v3
-- ==== Kernel.lean ====
abbrev S1x1024x260 : Shape := ⟨3, ![1, 1024, 260]⟩
abbrev S1x512x260 : Shape := ⟨3, ![1, 512, 260]⟩
abbrev S512x260 : Shape := ⟨2, ![512, 260]⟩
abbrev S512x512x522 : Shape := ⟨3, ![512, 512, 522]⟩
abbrev S16x260 : Shape := ⟨2, ![16, 260]⟩
abbrev S16x512x522 : Shape := ⟨3, ![16, 512, 522]⟩
abbrev S16x1 : Shape := ⟨2, ![16, 1]⟩
abbrev S16 : Shape := ⟨1, ![16]⟩
abbrev S512x1 : Shape := ⟨2, ![512, 1]⟩
abbrev S512 : Shape := ⟨1, ![512]⟩
abbrev S1x512 : Shape := ⟨2, ![1, 512]⟩
abbrev S16x512 : Shape := ⟨2, ![16, 512]⟩
abbrev S16x1x260 : Shape := ⟨3, ![16, 1, 260]⟩
abbrev S16x512x260 : Shape := ⟨3, ![16, 512, 260]⟩
abbrev S16x512x1 : Shape := ⟨3, ![16, 512, 1]⟩
abbrev S16x512x2 : Shape := ⟨3, ![16, 512, 2]⟩
abbrev S1x262144x522 : Shape := ⟨3, ![1, 262144, 522]⟩

abbrev nBuf : Space → Nat
  | .hbm => 5
  | .vmem => 5
  | .smem => 0
  | _ => 0

abbrev bufTy : (tb : Table) → Fin (tcTables nBuf tb) → BufTy
  | .hbm, ⟨0, _⟩ => ⟨S1x1024x260, .f32⟩
  | .hbm, ⟨1, _⟩ => ⟨S1x512x260, .f32⟩
  | .hbm, ⟨2, _⟩ => ⟨S512x260, .f32⟩
  | .hbm, ⟨3, _⟩ => ⟨S512x512x522, .f32⟩
  | .hbm, ⟨4, _⟩ => ⟨S1x262144x522, .f32⟩
  | .local _ .vmem, ⟨0, _⟩ => ⟨S16x260, .f32⟩
  | .local _ .vmem, ⟨1, _⟩ => ⟨S16x260, .f32⟩
  | .local _ .vmem, ⟨2, _⟩ => ⟨S512x260, .f32⟩
  | .local _ .vmem, ⟨3, _⟩ => ⟨S16x512x522, .f32⟩
  | .local _ .vmem, ⟨4, _⟩ => ⟨S16x512x522, .f32⟩
  | _, _ => ⟨S1x1024x260, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x260 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x260 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x512x522 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S1x1024x260_S1x512x260_0_0_0 : S1x1024x260.Slices ![0, 0, 0] S1x512x260
  shapeCasts_S1x512x260_S512x260 : S1x512x260.ShapeCasts S512x260
  inb_S16x260_S16x260_0_0 : ∀ a, (![0, 0] : Fin 2 → Nat) a + S16x260.size a ≤ S16x260.size a
  h_S16x260 : 0 < S16x260.numel
  shapeCasts_S16x260_S16x260 : S16x260.ShapeCasts S16x260
  inb_S512x260_S512x260_0_0 : ∀ a, (![0, 0] : Fin 2 → Nat) a + S512x260.size a ≤ S512x260.size a
  h_S512x260 : 0 < S512x260.numel
  shapeCasts_S512x260_S512x260 : S512x260.ShapeCasts S512x260
  slices_S16x260_o0_256_S16x1 : S16x260.Slices ![0, 256] S16x1
  shapeCasts_S16x1_S16 : S16x1.ShapeCasts S16
  slices_S16x260_o0_257_S16x1 : S16x260.Slices ![0, 257] S16x1
  slices_S16x260_o0_258_S16x1 : S16x260.Slices ![0, 258] S16x1
  slices_S16x260_o0_259_S16x1 : S16x260.Slices ![0, 259] S16x1
  slices_S512x260_o0_256_S512x1 : S512x260.Slices ![0, 256] S512x1
  shapeCasts_S512x1_S512 : S512x1.ShapeCasts S512
  slices_S512x260_o0_257_S512x1 : S512x260.Slices ![0, 257] S512x1
  slices_S512x260_o0_258_S512x1 : S512x260.Slices ![0, 258] S512x1
  slices_S512x260_o0_259_S512x1 : S512x260.Slices ![0, 259] S512x1
  shapeCasts_S16_S16x1 : S16.ShapeCasts S16x1
  shapeCasts_S512_S1x512 : S512.ShapeCasts S1x512
  broadcasts_S16x1_S16x512 : S16x1.Broadcasts S16x512
  broadcasts_S1x512_S16x512 : S1x512.Broadcasts S16x512
  shapeCasts_S16x260_S16x1x260 : S16x260.ShapeCasts S16x1x260
  shapeCasts_S16x1x260_S16x1x260 : S16x1x260.ShapeCasts S16x1x260
  broadcasts_S16x1x260_S16x512x260 : S16x1x260.Broadcasts S16x512x260
  inb_S16x512x522_S16x512x260_0_0_0 : ∀ a, (![0, 0, 0] : Fin 3 → Nat) a + S16x512x260.size a ≤ S16x512x522.size a
  h_S16x512x260 : 0 < S16x512x260.numel
  shapeCasts_S512x260_S1x512x260 : S512x260.ShapeCasts S1x512x260
  shapeCasts_S1x512x260_S1x512x260 : S1x512x260.ShapeCasts S1x512x260
  broadcasts_S1x512x260_S16x512x260 : S1x512x260.Broadcasts S16x512x260
  inb_S16x512x522_S16x512x260_0_0_260 : ∀ a, (![0, 0, 260] : Fin 3 → Nat) a + S16x512x260.size a ≤ S16x512x522.size a
  shapeCasts_S16x512_S16x512x1 : S16x512.ShapeCasts S16x512x1
  concatenates_S16x512x1_S16x512x1_S16x512x2_d2 : Shape.Concatenates [S16x512x1, S16x512x1] S16x512x2 2
  inb_S16x512x522_S16x512x2_0_0_520 : ∀ a, (![0, 0, 520] : Fin 3 → Nat) a + S16x512x2.size a ≤ S16x512x522.size a
  h_S16x512x2 : 0 < S16x512x2.numel
  shapeCasts_S512x512x522_S1x262144x522 : S512x512x522.ShapeCasts S1x262144x522
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x260.size a ≤ S512x260.size a
  hwx0_0 : ∀ i : grid0.Coords, EltTy.bits .f32 = 32 ∨ (Rect.block (s := S512x260) S16x260.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x260.size a ≤ S512x260.size a
  hwx0_1 : ∀ i : grid0.Coords, EltTy.bits .f32 = 32 ∨ (Rect.block (s := S512x260) S512x260.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512x522.size a ≤ S512x512x522.size a
  hwx0_2 : ∀ i : grid0.Coords, EltTy.bits .f32 = 32 ∨ (Rect.block (s := S512x512x522) S16x512x522.size (cc0_transform_2 i) (hinb0_2 i)).WholeWords (EltTy.packing .f32)

variable [Facts₀]

abbrev win0_0 : Pipeline.Window sig grid0 :=
  Pipeline.Window.ofSpec (Memref.whole main_v1) S16x260.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x260.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x512x522.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x1024x260 : Shape := ⟨3, ![1, 1024, 260]⟩
abbrev S1x512x260 : Shape := ⟨3, ![1, 512, 260]⟩
abbrev S512x260 : Shape := ⟨2, ![512, 260]⟩
abbrev S512x1 : Shape := ⟨2, ![512, 1]⟩
abbrev S512 : Shape := ⟨1, ![512]⟩
abbrev S1x512 : Shape := ⟨2, ![1, 512]⟩
abbrev S512x512 : Shape := ⟨2, ![512, 512]⟩
abbrev S_ : Shape := ⟨0, ![]⟩
abbrev S512x1x260 : Shape := ⟨3, ![512, 1, 260]⟩
abbrev S512x512x260 : Shape := ⟨3, ![512, 512, 260]⟩
abbrev S512x512x1 : Shape := ⟨3, ![512, 512, 1]⟩
abbrev S512x512x522 : Shape := ⟨3, ![512, 512, 522]⟩
abbrev S1x262144x522 : Shape := ⟨3, ![1, 262144, 522]⟩

abbrev nBuf : Space → Nat
  | .hbm => 57
  | .vmem => 0
  | .smem => 0
  | _ => 0

abbrev bufTy : (tb : Table) → Fin (tcTables nBuf tb) → BufTy
  | .hbm, ⟨0, _⟩ => ⟨S1x1024x260, .f32⟩
  | .hbm, ⟨1, _⟩ => ⟨S1x512x260, .f32⟩
  | .hbm, ⟨2, _⟩ => ⟨S512x260, .f32⟩
  | .hbm, ⟨3, _⟩ => ⟨S512x1, .f32⟩
  | .hbm, ⟨4, _⟩ => ⟨S512, .f32⟩
  | .hbm, ⟨5, _⟩ => ⟨S512x1, .f32⟩
  | .hbm, ⟨6, _⟩ => ⟨S512, .f32⟩
  | .hbm, ⟨7, _⟩ => ⟨S512x1, .f32⟩
  | .hbm, ⟨8, _⟩ => ⟨S512, .f32⟩
  | .hbm, ⟨9, _⟩ => ⟨S512x1, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512x1, .f32⟩
  | .hbm, ⟨15, _⟩ => ⟨S1x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x1, .f32⟩
  | .hbm, ⟨20, _⟩ => ⟨S1x512, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S512x1, .f32⟩
  | .hbm, ⟨29, _⟩ => ⟨S1x512, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x1, .f32⟩
  | .hbm, ⟨34, _⟩ => ⟨S1x512, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S512x1, .f32⟩
  | .hbm, ⟨44, _⟩ => ⟨S512x512, .f32⟩
  | .hbm, ⟨45, _⟩ => ⟨S512x512, .f32⟩
  | .hbm, ⟨46, _⟩ => ⟨S1x512, .f32⟩
  | .hbm, ⟨47, _⟩ => ⟨S512x512, .f32⟩
  | .hbm, ⟨48, _⟩ => ⟨S512x512, .f32⟩
  | .hbm, ⟨49, _⟩ => ⟨S512x1x260, .f32⟩
  | .hbm, ⟨50, _⟩ => ⟨S512x512x260, .f32⟩
  | .hbm, ⟨51, _⟩ => ⟨S1x512x260, .f32⟩
  | .hbm, ⟨52, _⟩ => ⟨S512x512x260, .f32⟩
  | .hbm, ⟨53, _⟩ => ⟨S512x512x1, .f32⟩
  | .hbm, ⟨54, _⟩ => ⟨S512x512x1, .f32⟩
  | .hbm, ⟨55, _⟩ => ⟨S512x512x522, .f32⟩
  | .hbm, ⟨56, _⟩ => ⟨S1x262144x522, .f32⟩
  | _, _ => ⟨S1x1024x260, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_cst : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_cst_0 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩

abbrev nD : Nat := 1
abbrev τ : Topo := Topo.v7x

variable {F : FTy → Type} [FloatOps F]

class Facts₀ : Prop where
  slices_S1x1024x260_S1x512x260_0_0_0 : S1x1024x260.Slices ![0, 0, 0] S1x512x260
  shapeCasts_S1x512x260_S512x260 : S1x512x260.ShapeCasts S512x260
  slices_S512x260_S512x1_0_256 : S512x260.Slices ![0, 256] S512x1
  shapeCasts_S512x1_S512 : S512x1.ShapeCasts S512
  slices_S512x260_S512x1_0_257 : S512x260.Slices ![0, 257] S512x1
  slices_S512x260_S512x1_0_258 : S512x260.Slices ![0, 258] S512x1
  slices_S512x260_S512x1_0_259 : S512x260.Slices ![0, 259] S512x1
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S512x260_S512x1x260_0_2 : S512x260.BroadcastsInDim S512x1x260 (![0, 2] : Fin 2 → Fin S512x1x260.rank)
  bcast_S512x1x260_S512x512x260_0_1_2 : S512x1x260.BroadcastsInDim S512x512x260 (![0, 1, 2] : Fin 3 → Fin S512x512x260.rank)
  bcast_S512x260_S1x512x260_1_2 : S512x260.BroadcastsInDim S1x512x260 (![1, 2] : Fin 2 → Fin S1x512x260.rank)
  bcast_S1x512x260_S512x512x260_0_1_2 : S1x512x260.BroadcastsInDim S512x512x260 (![0, 1, 2] : Fin 3 → Fin S512x512x260.rank)
  bcast_S512x512_S512x512x1_0_1 : S512x512.BroadcastsInDim S512x512x1 (![0, 1] : Fin 2 → Fin S512x512x1.rank)
  concatenates_S512x512x260_S512x512x260_S512x512x1_S512x512x1_S512x512x522_d2 : Shape.Concatenates [S512x512x260, S512x512x260, S512x512x1, S512x512x1] S512x512x522 2
  shapeCasts_S512x512x522_S1x262144x522 : S512x512x522.ShapeCasts S1x262144x522

variable [Facts₀]

class Facts : Prop extends Facts₀ where

variable [Facts]
-- ==== Proof.Kernel.Stores.lean ====
/-
  The body's three stores into the output block, read as ONE function of the two input blocks.
  The body writes the output block [16, 512, 522] in three column bands: columns 0–259 hold the
  row block broadcast along the middle axis, columns 260–519 the whole table broadcast along the
  leading axis, columns 520–521 the two containment ratios. Each band is a unit-stride rectangle
  of the block, the three tile it, and so the block after the body is the canon of the three
  pieces over the payloads the skeleton names.
-/
import proofs.«147439_j83811991814342_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.SL.Sem
open Cert.Kernel Cert.Kernel.Gen

variable {F : FTy → Type} [FloatOps F]

/-- The whole row block [16, 260], as the body loads it. -/
abbrev rRow : Rect S16x260 := Rect.unit (s := S16x260) ![0, 0] S16x260.size inb_S16x260_S16x260_0_0
/-- The whole table [512, 260], as the body loads it. -/
abbrev rTab : Rect S512x260 := Rect.unit (s := S512x260) ![0, 0] S512x260.size inb_S512x260_S512x260_0_0
/-- Columns 0–259 of the output block. -/
abbrev rLeft : Rect S16x512x522 := Rect.unit (s := S16x512x522) ![0, 0, 0] S16x512x260.size inb_S16x512x522_S16x512x260_0_0_0
/-- Columns 260–519 of the output block. -/
abbrev rMid : Rect S16x512x522 := Rect.unit (s := S16x512x522) ![0, 0, 260] S16x512x260.size inb_S16x512x522_S16x512x260_0_0_260
/-- Columns 520–521 of the output block. -/
abbrev rTail : Rect S16x512x522 := Rect.unit (s := S16x512x522) ![0, 0, 520] S16x512x2.size inb_S16x512x522_S16x512x2_0_0_520

/-- The three pieces the body stores, last store first, over the payloads of the loaded blocks. -/
def pieces (x0 : Vec F S16x260 .f32) (x1 : Vec F S512x260 .f32) : List (View.Piece (Elt F) S16x512x522 .f32) :=
  [⟨rTail, k0_pay3 (k0_pay14 (View.ld x0 rRow)) (k0_pay15 (View.ld x1 rTab)) (k0_pay16 (View.ld x0 rRow) (View.ld x1 rTab))⟩,
   ⟨rMid, k0_pay2 (k0_pay5 (View.ld x1 rTab))⟩,
   ⟨rLeft, k0_pay1 (k0_pay4 (View.ld x0 rRow))⟩]

/-- The output block after the body, from the row block `x0` and the table `x1`. -/
def blockOut (x0 : Vec F S16x260 .f32) (x1 : Vec F S512x260 .f32) : Vec F S16x512x522 .f32 :=
  View.canon (pieces x0 x1)

/-- The three bands tile the block: every index of it lies in one of them (each band cut into
    strips two columns wide, the strips tile [16, 512, 522]). -/
theorem bands_cover (pa pb : Vec F S16x512x260 .f32) (pc : Vec F S16x512x2 .f32) (y : S16x512x522.Idx) :
    ∃ p ∈ ([⟨rTail, pc⟩, ⟨rMid, pb⟩, ⟨rLeft, pa⟩] : List (View.Piece (Elt F) S16x512x522 .f32)), y ∈ p.1.set :=
  View.cover_of_tiledBy [⟨rTail, pc⟩, ⟨rMid, pb⟩, ⟨rLeft, pa⟩] ![16, 512, 2] (by sl_kernel_rfl) y

end Cert.Kernel.Hand

end
-- ==== Proof.Kernel.Body.lean ====
/-
  The kernel body as a triple: run on three whole staging buffers — the row block at contents
  `x0`, the table at `x1`, the output block at anything — it ends with the two inputs as they
  were and the output block at `blockOut x0 x1`, the canon of its three column bands. The body
  reads the output block before each store; what it reads is never used.
-/
import proofs.«147439_j83811991814342_1_alg».proof.Proof.Kernel.Stores
import proofs.«147439_j83811991814342_1_alg».proof.Proof.Gen.Kernel.Launch
import proofs.«147439_j83811991814342_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body on whole staging buffers. -/
theorem sound_kernel (c : Dev nD) (E : Set ℕ) (i : grid0.Coords)
    (arg1 : Memref sig .tc .vmem S16x260 .f32) (harg1 : arg1.IsWhole)
    (arg2 : Memref sig .tc .vmem S512x260 .f32) (harg2 : arg2.IsWhole)
    (arg3 : Memref sig .tc .vmem S16x512x522 .f32) (harg3 : arg3.IsWhole)
    (x0 : Vec F S16x260 .f32) (x1 : Vec F S512x260 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (blockOut x0 x1)) -∗ K ⟨⟩))
      ⊢ wp frame (wpE (defs₀ (F := F)) Variants.none c none) E (cc0__pair_kernel i arg1 harg1 arg2 harg2 arg3 harg3) K := by
  simp only [cc0__pair_kernel_eq_skeleton]; unfold cc0__pair_kernel_skel
  simp only [k0_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (bands_cover _ _ _)

end Cert.Kernel.Hand

end
-- ==== Proof.Kernel.Data.lean ====
/-
  The proof data of the one pipeline. The region is entered after the host slice and reshape, which
  leave the 512×260 table in one array; two input windows read that array — the row block of the
  point (16 rows) and the whole table — and one output window writes the 16×512×522 block of the
  point. Since two windows read one array, each holds HALF of its share: the left half for the
  row-block window, the right half for the table window; the output array is held whole. After the
  body each input buffer still holds its block and the output buffer holds `blockOut` of the two.
-/
import proofs.«147439_j83811991814342_1_alg».proof.Proof.Kernel.Body
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the slice and the reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two host lines, the region, the final reshape: it reduces to the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The table window's buffer holds the table at every point, fetched there (the first) or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = blockOut (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.Kernel.Run.lean ====
/-
  The launch. Two input windows read ONE array (the table), so the launch is taken with the
  arrays' distinctness dropped: the table's full share is split into its two halves at the
  region's entry, one per window, and the windows hold them until the end. The line after the
  region — the final reshape — runs holding only the result array and its own result buffer, so
  the two halves are never rejoined: they are read back at their shares. The run ends with every
  window's array as the write-backs left it and every other unscoped buffer at `Vfin`; read at
  the argument and at @main's result it is the frame and the result clause.
-/
import proofs.«147439_j83811991814342_1_alg».proof.Proof.Kernel.Data
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are two: the table and the result. -/
theorem arrBufs_eq (c : Dev nD) (Vc : (b : Ref sig .tc) → Buf (Elt F) ((c.tc : Thread nD τ).loc b)) :
    (Pipeline.arrBufs (Ix := Unit) (Name := ℕ) (U := UR sig nD τ) (Lvl := ℕ) spec0 c Vc : sProp 𝕄)
      = iprop((((c : Thread nD τ).loc main_v1) ↦{fullShare} Vc main_v1) ∗ (((c : Thread nD τ).loc main_v2) ↦{fullShare} Vc main_v2)) := by
  unfold Pipeline.arrBufs
  exact bigSep_eq_bigSepL_of_eq [main_v1, main_v2] (by decide) (by decide) _

theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare := by
  unfold Dat.share; rw [if_pos (by decide)]

/-- The windows' arrays at contents `A`: the table's two halves and the result whole. -/
theorem arrays_eq3 (c : Dev nD) (A : (w : Fin cfg0.W) → Buf (Elt F) ((cfg0.win w).arr.view.loc (c.tc : Thread nD τ))) :
    ((dats m 0 c).arrays A : sProp 𝕄)
      = iprop((((c : Thread nD τ).loc main_v1) ↦{fullShare.left} A 0) ∗ (((c : Thread nD τ).loc main_v1) ↦{fullShare.right} A 1)
          ∗ (((c : Thread nD τ).loc main_v2) ↦{fullShare} A 2)) := by
  unfold Dat.arrays
  rw [bigSep_W0, (arr_whole0 0).set_eq_univ, (arr_whole0 2).set_eq_univ, share0, share1, share2]

theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  rw [arrBufs_eq, arrays_eq3]
  iintro ⟨H1, H2⟩
  ihave H1' := (pointsTo_share (PosShare.mem_left_op_right fullShare)).1 $$ H1
  icases H1' with ⟨Hl, Hr⟩
  isplitl [Hl]; · iexact Hl
  isplitl [Hr]; · iexact Hr
  iexact H2

/-- What core `c`'s buffers hold when the region is left: as at its entry, but the result array as the write-backs left it. -/
def Wexit (c : Dev nD) : Valuation τ sig (Elt F) :=
  Function.update (V0 m c) (Proc.devRef .tc main_v2) ((dats m 0 c).arrAt 2 cfg0.N)
/-- What they hold at the end: after the final reshape. -/
def Vfin (c : Dev nD) : Valuation τ sig (Elt F) := StableHlo.after hostOps1 (Wexit m c)

theorem Wexit_v2 (c : Dev nD) : Wexit m c (Proc.devRef .tc main_v2) = (dats m 0 c).arrAt 2 cfg0.N := by
  unfold Wexit; exact Function.update_self _ _ _
theorem Wexit_ne (c : Dev nD) (b : Ref sig .tc) (hb : b ≠ main_v2) : Wexit m c (Proc.devRef .tc b) = V m c b := by
  unfold Wexit; exact Function.update_of_ne (StableHlo.devRef_ne_of_ne hb) _ _

/-- The final reshape writes only its result: any other buffer ends as the region left it. -/
theorem Vfin_ne (c : Dev nD) (b : Ref sig .tc) (hb : b ≠ main_v3) : Vfin m c (Proc.devRef .tc b) = Wexit m c (Proc.devRef .tc b) := by
  unfold Vfin
  exact StableHlo.after_of_forall_not_mem _ _ fun op hop => by
    simp only [hostOps1, List.mem_cons, List.mem_nil_iff, or_false] at hop
    subst hop
    rw [StableHlo.reshape_writes, Finset.mem_singleton]
    exact StableHlo.devRef_ne_of_ne hb

/-- The result of @main is the reshape of the result array as the write-backs left it. -/
theorem Vfin_v3 (c : Dev nD) :
    Vfin m c (Proc.devRef .tc main_v3) = shapeCast S1x262144x522 ((dats m 0 c).arrAt 2 cfg0.N) shapeCasts_S512x512x522_S1x262144x522 := by
  unfold Vfin
  after_results
  rw [Wexit_v2]
  rfl

/-- The two buffers the final reshape touches, held at a valuation. -/
theorem held_pair (c : Dev nD) (W : Valuation τ sig (Elt F)) :
    (StableHlo.held (c.tc : Thread nD τ) ({Proc.devRef .tc main_v2, Proc.devRef .tc main_v3} : Finset (DevRef τ sig)) W : sProp 𝕄)
      = iprop((((c : Thread nD τ).loc main_v2) ↦{fullShare} W (Proc.devRef .tc main_v2)) ∗ (((c : Thread nD τ).loc main_v3) ↦{fullShare} W (Proc.devRef .tc main_v3))) := by
  unfold StableHlo.held
  exact bigSep_eq_bigSepL_of_eq [Proc.devRef .tc main_v2, Proc.devRef .tc main_v3] (by decide) (by decide) _

set_option backward.isDefEq.respectTransparency.types false in
/-- THE LINE AFTER THE REGION: from the region's exit — the table's two halves, the result array as written back, the other
    buffers as at entry — the reshape runs holding the result array and its own result only, and hands everything back with
    its result at `Vfin`. -/
theorem tail_run (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (fun b => Vfin m c (Proc.devRef .tc b))) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ (Pipeline.chain [StableHlo.seq hostOps1]) Q' := by
  rw [Pipeline.unscopedRestP_none, Pipeline.unscopedRestP_none, unscopedRest0_eq, unscopedRest0_eq, arrays_eq3]
  rw [Vfin_ne m c main_arg0 (by decide), Vfin_ne m c main_v0 (by decide), Wexit_ne m c main_arg0 (by decide), Wexit_ne m c main_v0 (by decide)]
  iintro ⟨Hk, Hb, ⟨Ha0, Ha1, Ha2⟩, ⟨Harg, Hv0, Hv3⟩⟩
  have hS : ∀ ops ∈ ([hostOps1] : List (List (HloOp τ sig (Elt F)))), ∀ op ∈ ops,
      op.bufs ⊆ ({Proc.devRef .tc main_v2, Proc.devRef .tc main_v3} : Finset (DevRef τ sig)) := by
    intro ops hops op hop
    simp only [List.mem_cons, List.mem_nil_iff, or_false] at hops
    subst hops
    simp only [hostOps1, List.mem_cons, List.mem_nil_iff, or_false] at hop
    subst hop
    rw [StableHlo.reshape_bufs]
  have hf : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  have hfl : ([hostOps1] : List (List (HloOp τ sig (Elt F)))).flatten = hostOps1 := by
    simp only [List.flatten_cons, List.flatten_nil, List.append_nil]
  have hwp := Pipeline.wp_seqs_then (Ix := Unit) (Name := ℕ) (U := UR sig nD τ) (Lvl := ℕ) (fun q => (cfgs q).toPCfg (Val := Elt F)) defs₀ Variants.none c
    ({Proc.devRef .tc main_v2, Proc.devRef .tc main_v3} : Finset (DevRef τ sig)) [] (K := Q') [hostOps1] hS hf (Wexit m c)
  rw [List.append_nil, hfl, show StableHlo.after hostOps1 (Wexit m c) = Vfin m c from rfl, held_pair, held_pair,
    Wexit_v2, Wexit_ne m c main_v3 (by decide), Vfin_ne m c main_v2 (by decide), Wexit_v2, Pipeline.chain_nil, wp_pure] at hwp
  iapply hwp $$ [Hb Ha2 Hv3]
  · isplitl [Hb]; · iexact Hb
    isplitl [Ha2]; · iexact Ha2
    iexact Hv3
  iintro ⟨Hb, H2, H3⟩
  imodintro
  iapply Hk
  isplitl [Ha0 Ha1 H2]
  · isplitl [Ha0]; · iexact Ha0
    isplitl [Ha1]; · iexact Ha1
    iexact H2
  isplitl [Harg]; · iexact Harg
  isplitl [Hv0]; · iexact Hv0
  iexact H3

set_option backward.isDefEq.respectTransparency.types false in
/-- THE RUN. From any memory with zero counters every weakly fair execution of @main terminates, with every window's array
    as the write-backs left it and every other unscoped buffer at its final contents `Vfin`. -/
theorem run_main :
    θ_run defs (onTc (τ := τ) (main (F := F))) ⟨m, fun _ => 0, ρ⟩ (fun r => ∀ c : Dev nD,
      (∀ w, r.2.mem (((cfg0).spec w).arr.view.loc (c.tc : Thread nD τ)) = (dats m 0 c).arrAt w cfg0.N)
      ∧ ∀ b ∈ Pipeline.restRefsP sig Pipeline.Prefetch.none spec0, r.2.mem ((c.tc : Thread nD τ).loc b) = Vfin m c (Proc.devRef .tc b)) := by
  classical
  have phinj : Function.Injective (cellOf (nD := nD) (τ := τ) (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) (dats m) () phinj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells _ phinj) (Pipeline.launchToks _ phinj))
    (hu₀ := by
      iintro Hu; imodintro
      isplitl [Hu]; · iapply (show (ownU _ : sProp 𝕄) ⊢ BI.own (emb₁ (initOf (Pipeline.cells _ phinj) (Pipeline.launchToks _ phinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Vfin m c (Proc.devRef .tc b)))
    (hX := fun c => by
      iintro ⟨HU, -, -, -, Hp, -⟩; imodintro
      isplitl [Hp]; · iexists _; iexact Hp
      iexact HU)
    (hin := fun c => by
      dsimp only [dats]
      unfold Pipeline.ΦA
      iintro ⟨Hp, -, Hr⟩
      isplitl [Hr] <;> iassumption)
    (hout := fun c => by
      dsimp only [dats]
      rw [Pipeline.ownSems0_none]; unfold Pipeline.ΦA
      iintro ⟨Hr, Hp⟩
      isplitl [Hp]; · iexact Hp
      isplitr; · iempintro
      iexact Hr)
    (htail := fun c Q' => tail_run m c Q')
    (QY := fun c s => ∀ b ∈ Pipeline.restRefsP sig Pipeline.Prefetch.none spec0, s.mem ((c.tc : Thread nD τ).loc b) = Vfin m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Vfin m c (Proc.devRef .tc b)) s')
      isplitl [HU] <;> iassumption)
    (hQ := fun s h c => ⟨(h c).1, (h c).2.2⟩)

/-- The host lines before the region do not write the argument: it enters the region as launched. -/
theorem V_main_arg0 (c : Dev nD) : V m c main_arg0 = m ((c : Thread nD τ).loc main_arg0) := by
  show StableHlo.after (List.flatten [hostOps0]) (fun b => m (c, b)) (Proc.devRef .tc main_arg0) = _
  simp only [List.flatten_cons, List.flatten_nil, List.append_nil]
  exact StableHlo.after_of_forall_not_mem _ _ fun op hop => by
    simp only [hostOps0, List.mem_cons, List.mem_nil_iff, or_false] at hop
    rcases hop with rfl | rfl
    · rw [StableHlo.unary_writes, Finset.mem_singleton]; exact StableHlo.devRef_ne_of_ne (by decide)
    · rw [StableHlo.reshape_writes, Finset.mem_singleton]; exact StableHlo.devRef_ne_of_ne (by decide)

/-- The table the region reads: the reshape of the slice of the argument. -/
theorem V_main_v1 (c : Dev nD) :
    V m c main_v1 = shapeCast S512x260 (extractStridedSlice S1x512x260 ![0, 0, 0] (m ((c : Thread nD τ).loc main_arg0)) slices_S1x1024x260_S1x512x260_0_0_0)
      shapeCasts_S1x512x260_S512x260 := by
  show StableHlo.after (List.flatten [hostOps0]) (fun b => m (c, b)) (Proc.devRef .tc main_v1) = _
  simp only [List.flatten_cons, List.flatten_nil, List.append_nil]
  after_results
  rfl

/-- THE FRAME and THE RESULT off the run: the argument ends as launched, and @main's result is the reshape of the result
    array as the write-backs left it. -/
theorem run_read :
    θ_run defs (onTc (τ := τ) (main (F := F))) ⟨m, fun _ => 0, ρ⟩ (fun r => ∀ c : Dev nD,
      r.2.mem ((c.tc : Thread nD τ).loc main_v3)
          = shapeCast S1x262144x522 ((dats m 0 c).arrAt 2 cfg0.N) shapeCasts_S512x512x522_S1x262144x522
      ∧ r.2.mem ((c.tc : Thread nD τ).loc main_arg0) = m ((c.tc : Thread nD τ).loc main_arg0)) :=
  (θ_run defs _ _).mono (fun r h c =>
      ⟨((h c).2 main_v3 (by decide)).trans (Vfin_v3 m c),
       ((h c).2 main_arg0 (by decide)).trans (((Vfin_ne m c main_arg0 (by decide)).trans (Wexit_ne m c main_arg0 (by decide))).trans (V_main_arg0 m c))⟩)
    (run_main m ρ)

/-- THE FRAME: @main runs to its end and its argument ends unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run_read m ρ)

end Cert.Kernel.Hand

end
-- ==== Proof.KernelIdeal.Stores.lean ====
/-
  The body's three stores into the output block, read as ONE function of the two input blocks.
  The body writes the output block [16, 512, 522] in three column bands: columns 0–259 hold the
  row block broadcast along the middle axis, columns 260–519 the whole table broadcast along the
  leading axis, columns 520–521 the two containment ratios. Each band is a unit-stride rectangle
  of the block, the three tile it, and so the block after the body is the canon of the three
  pieces over the payloads the skeleton names.
-/
import proofs.«147439_j83811991814342_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen

variable {F : FTy → Type} [FloatOps F]

/-- The whole row block [16, 260], as the body loads it. -/
abbrev rRow : Rect S16x260 := Rect.unit (s := S16x260) ![0, 0] S16x260.size inb_S16x260_S16x260_0_0
/-- The whole table [512, 260], as the body loads it. -/
abbrev rTab : Rect S512x260 := Rect.unit (s := S512x260) ![0, 0] S512x260.size inb_S512x260_S512x260_0_0
/-- Columns 0–259 of the output block. -/
abbrev rLeft : Rect S16x512x522 := Rect.unit (s := S16x512x522) ![0, 0, 0] S16x512x260.size inb_S16x512x522_S16x512x260_0_0_0
/-- Columns 260–519 of the output block. -/
abbrev rMid : Rect S16x512x522 := Rect.unit (s := S16x512x522) ![0, 0, 260] S16x512x260.size inb_S16x512x522_S16x512x260_0_0_260
/-- Columns 520–521 of the output block. -/
abbrev rTail : Rect S16x512x522 := Rect.unit (s := S16x512x522) ![0, 0, 520] S16x512x2.size inb_S16x512x522_S16x512x2_0_0_520

/-- The three pieces the body stores, last store first, over the payloads of the loaded blocks. -/
def pieces (x0 : Vec F S16x260 .f32) (x1 : Vec F S512x260 .f32) : List (View.Piece (Elt F) S16x512x522 .f32) :=
  [⟨rTail, k0_pay3 (k0_pay14 (View.ld x0 rRow)) (k0_pay15 (View.ld x1 rTab)) (k0_pay16 (View.ld x0 rRow) (View.ld x1 rTab))⟩,
   ⟨rMid, k0_pay2 (k0_pay5 (View.ld x1 rTab))⟩,
   ⟨rLeft, k0_pay1 (k0_pay4 (View.ld x0 rRow))⟩]

/-- The output block after the body, from the row block `x0` and the table `x1`. -/
def blockOut (x0 : Vec F S16x260 .f32) (x1 : Vec F S512x260 .f32) : Vec F S16x512x522 .f32 :=
  View.canon (pieces x0 x1)

/-- The three bands tile the block: every index of it lies in one of them (each band cut into
    strips two columns wide, the strips tile [16, 512, 522]). -/
theorem bands_cover (pa pb : Vec F S16x512x260 .f32) (pc : Vec F S16x512x2 .f32) (y : S16x512x522.Idx) :
    ∃ p ∈ ([⟨rTail, pc⟩, ⟨rMid, pb⟩, ⟨rLeft, pa⟩] : List (View.Piece (Elt F) S16x512x522 .f32)), y ∈ p.1.set :=
  View.cover_of_tiledBy [⟨rTail, pc⟩, ⟨rMid, pb⟩, ⟨rLeft, pa⟩] ![16, 512, 2] (by sl_kernel_rfl) y

end Cert.KernelIdeal.Hand

end
-- ==== Proof.KernelIdeal.Body.lean ====
/-
  The kernel body as a triple: run on three whole staging buffers — the row block at contents
  `x0`, the table at `x1`, the output block at anything — it ends with the two inputs as they
  were and the output block at `blockOut x0 x1`, the canon of its three column bands. The body
  reads the output block before each store; what it reads is never used.
-/
import proofs.«147439_j83811991814342_1_alg».proof.Proof.KernelIdeal.Stores
import proofs.«147439_j83811991814342_1_alg».proof.Proof.Gen.KernelIdeal.Launch
import proofs.«147439_j83811991814342_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body on whole staging buffers. -/
theorem sound_kernel (c : Dev nD) (E : Set ℕ) (i : grid0.Coords)
    (arg1 : Memref sig .tc .vmem S16x260 .f32) (harg1 : arg1.IsWhole)
    (arg2 : Memref sig .tc .vmem S512x260 .f32) (harg2 : arg2.IsWhole)
    (arg3 : Memref sig .tc .vmem S16x512x522 .f32) (harg3 : arg3.IsWhole)
    (x0 : Vec F S16x260 .f32) (x1 : Vec F S512x260 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (blockOut x0 x1)) -∗ K ⟨⟩))
      ⊢ wp frame (wpE (defs₀ (F := F)) Variants.none c none) E (cc0__pair_kernel i arg1 harg1 arg2 harg2 arg3 harg3) K := by
  simp only [cc0__pair_kernel_eq_skeleton]; unfold cc0__pair_kernel_skel
  simp only [k0_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (bands_cover _ _ _)

end Cert.KernelIdeal.Hand

end
-- ==== Proof.KernelIdeal.Data.lean ====
/-
  The proof data of the one pipeline. The region is entered after the host slice and reshape, which
  leave the 512×260 table in one array; two input windows read that array — the row block of the
  point (16 rows) and the whole table — and one output window writes the 16×512×522 block of the
  point. Since two windows read one array, each holds HALF of its share: the left half for the
  row-block window, the right half for the table window; the output array is held whole. After the
  body each input buffer still holds its block and the output buffer holds `blockOut` of the two.
-/
import proofs.«147439_j83811991814342_1_alg».proof.Proof.KernelIdeal.Body
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the slice and the reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two host lines, the region, the final reshape: it reduces to the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The table window's buffer holds the table at every point, fetched there (the first) or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = blockOut (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdeal.Run.lean ====
/-
  The launch. Two input windows read ONE array (the table), so the launch is taken with the
  arrays' distinctness dropped: the table's full share is split into its two halves at the
  region's entry, one per window, and the windows hold them until the end. The line after the
  region — the final reshape — runs holding only the result array and its own result buffer, so
  the two halves are never rejoined: they are read back at their shares. The run ends with every
  window's array as the write-backs left it and every other unscoped buffer at `Vfin`; read at
  the argument and at @main's result it is the frame and the result clause.
-/
import proofs.«147439_j83811991814342_1_alg».proof.Proof.KernelIdeal.Data
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are two: the table and the result. -/
theorem arrBufs_eq (c : Dev nD) (Vc : (b : Ref sig .tc) → Buf (Elt F) ((c.tc : Thread nD τ).loc b)) :
    (Pipeline.arrBufs (Ix := Unit) (Name := ℕ) (U := UR sig nD τ) (Lvl := ℕ) spec0 c Vc : sProp 𝕄)
      = iprop((((c : Thread nD τ).loc main_v1) ↦{fullShare} Vc main_v1) ∗ (((c : Thread nD τ).loc main_v2) ↦{fullShare} Vc main_v2)) := by
  unfold Pipeline.arrBufs
  exact bigSep_eq_bigSepL_of_eq [main_v1, main_v2] (by decide) (by decide) _

theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare := by
  unfold Dat.share; rw [if_pos (by decide)]

/-- The windows' arrays at contents `A`: the table's two halves and the result whole. -/
theorem arrays_eq3 (c : Dev nD) (A : (w : Fin cfg0.W) → Buf (Elt F) ((cfg0.win w).arr.view.loc (c.tc : Thread nD τ))) :
    ((dats m 0 c).arrays A : sProp 𝕄)
      = iprop((((c : Thread nD τ).loc main_v1) ↦{fullShare.left} A 0) ∗ (((c : Thread nD τ).loc main_v1) ↦{fullShare.right} A 1)
          ∗ (((c : Thread nD τ).loc main_v2) ↦{fullShare} A 2)) := by
  unfold Dat.arrays
  rw [bigSep_W0, (arr_whole0 0).set_eq_univ, (arr_whole0 2).set_eq_univ, share0, share1, share2]

theorem hsplit (c : Dev nD) : (Pipeline.arrBufs (Ix := Unit) (Name := ℕ) (U := UR sig nD τ) (Lvl := ℕ) spec0 c (V m c) : sProp 𝕄)
    ⊢ (dats m 0 c).arrays ((dats m 0 c).arrAt · 0) := by
  rw [arrBufs_eq, arrays_eq3]
  iintro ⟨H1, H2⟩
  ihave H1' := (pointsTo_share (PosShare.mem_left_op_right fullShare)).1 $$ H1
  icases H1' with ⟨Hl, Hr⟩
  isplitl [Hl]; · iexact Hl
  isplitl [Hr]; · iexact Hr
  iexact H2

/-- What core `c`'s buffers hold when the region is left: as at its entry, but the result array as the write-backs left it. -/
def Wexit (c : Dev nD) : Valuation τ sig (Elt F) :=
  Function.update (V0 m c) (Proc.devRef .tc main_v2) ((dats m 0 c).arrAt 2 cfg0.N)
/-- What they hold at the end: after the final reshape. -/
def Vfin (c : Dev nD) : Valuation τ sig (Elt F) := StableHlo.after hostOps1 (Wexit m c)

theorem Wexit_v2 (c : Dev nD) : Wexit m c (Proc.devRef .tc main_v2) = (dats m 0 c).arrAt 2 cfg0.N := by
  unfold Wexit; exact Function.update_self _ _ _
theorem Wexit_ne (c : Dev nD) (b : Ref sig .tc) (hb : b ≠ main_v2) : Wexit m c (Proc.devRef .tc b) = V m c b := by
  unfold Wexit; exact Function.update_of_ne (StableHlo.devRef_ne_of_ne hb) _ _

/-- The final reshape writes only its result: any other buffer ends as the region left it. -/
theorem Vfin_ne (c : Dev nD) (b : Ref sig .tc) (hb : b ≠ main_v3) : Vfin m c (Proc.devRef .tc b) = Wexit m c (Proc.devRef .tc b) := by
  unfold Vfin
  exact StableHlo.after_of_forall_not_mem _ _ fun op hop => by
    simp only [hostOps1, List.mem_cons, List.mem_nil_iff, or_false] at hop
    subst hop
    rw [StableHlo.reshape_writes, Finset.mem_singleton]
    exact StableHlo.devRef_ne_of_ne hb

/-- The result of @main is the reshape of the result array as the write-backs left it. -/
theorem Vfin_v3 (c : Dev nD) :
    Vfin m c (Proc.devRef .tc main_v3) = shapeCast S1x262144x522 ((dats m 0 c).arrAt 2 cfg0.N) shapeCasts_S512x512x522_S1x262144x522 := by
  unfold Vfin
  after_results
  rw [Wexit_v2]
  rfl

/-- The two buffers the final reshape touches, held at a valuation. -/
theorem held_pair (c : Dev nD) (W : Valuation τ sig (Elt F)) :
    (StableHlo.held (c.tc : Thread nD τ) ({Proc.devRef .tc main_v2, Proc.devRef .tc main_v3} : Finset (DevRef τ sig)) W : sProp 𝕄)
      = iprop((((c : Thread nD τ).loc main_v2) ↦{fullShare} W (Proc.devRef .tc main_v2)) ∗ (((c : Thread nD τ).loc main_v3) ↦{fullShare} W (Proc.devRef .tc main_v3))) := by
  unfold StableHlo.held
  exact bigSep_eq_bigSepL_of_eq [Proc.devRef .tc main_v2, Proc.devRef .tc main_v3] (by decide) (by decide) _

set_option backward.isDefEq.respectTransparency.types false in
/-- THE LINE AFTER THE REGION: from the region's exit — the table's two halves, the result array as written back, the other
    buffers as at entry — the reshape runs holding the result array and its own result only, and hands everything back with
    its result at `Vfin`. -/
theorem tail_run (c : Dev nD) (Q' : PUnit → sProp 𝕄) :
    iprop((iprop((dats m 0 c).arrays ((dats m 0 c).arrAt · cfg0.N)
              ∗ Pipeline.unscopedRestP (Ix := Unit) (Name := ℕ) (U := UR sig nD τ) (Lvl := ℕ) Pipeline.Prefetch.none spec0 c (fun b => Vfin m c (Proc.devRef .tc b))) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ (Pipeline.chain [StableHlo.seq hostOps1]) Q' := by
  rw [Pipeline.unscopedRestP_none, Pipeline.unscopedRestP_none, unscopedRest0_eq, unscopedRest0_eq, arrays_eq3]
  rw [Vfin_ne m c main_arg0 (by decide), Vfin_ne m c main_v0 (by decide), Wexit_ne m c main_arg0 (by decide), Wexit_ne m c main_v0 (by decide)]
  iintro ⟨Hk, Hb, ⟨Ha0, Ha1, Ha2⟩, ⟨Harg, Hv0, Hv3⟩⟩
  have hS : ∀ ops ∈ ([hostOps1] : List (List (HloOp τ sig (Elt F)))), ∀ op ∈ ops,
      op.bufs ⊆ ({Proc.devRef .tc main_v2, Proc.devRef .tc main_v3} : Finset (DevRef τ sig)) := by
    intro ops hops op hop
    simp only [List.mem_cons, List.mem_nil_iff, or_false] at hops
    subst hops
    simp only [hostOps1, List.mem_cons, List.mem_nil_iff, or_false] at hop
    subst hop
    rw [StableHlo.reshape_bufs]
  have hf : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  have hfl : ([hostOps1] : List (List (HloOp τ sig (Elt F)))).flatten = hostOps1 := by
    simp only [List.flatten_cons, List.flatten_nil, List.append_nil]
  have hwp := Pipeline.wp_seqs_then (Ix := Unit) (Name := ℕ) (U := UR sig nD τ) (Lvl := ℕ) (fun q => (cfgs q).toPCfg (Val := Elt F)) defs₀ Variants.none c
    ({Proc.devRef .tc main_v2, Proc.devRef .tc main_v3} : Finset (DevRef τ sig)) [] (K := Q') [hostOps1] hS hf (Wexit m c)
  rw [List.append_nil, hfl, show StableHlo.after hostOps1 (Wexit m c) = Vfin m c from rfl, held_pair, held_pair,
    Wexit_v2, Wexit_ne m c main_v3 (by decide), Vfin_ne m c main_v2 (by decide), Wexit_v2, Pipeline.chain_nil, wp_pure] at hwp
  iapply hwp $$ [Hb Ha2 Hv3]
  · isplitl [Hb]; · iexact Hb
    isplitl [Ha2]; · iexact Ha2
    iexact Hv3
  iintro ⟨Hb, H2, H3⟩
  imodintro
  iapply Hk
  isplitl [Ha0 Ha1 H2]
  · isplitl [Ha0]; · iexact Ha0
    isplitl [Ha1]; · iexact Ha1
    iexact H2
  isplitl [Harg]; · iexact Harg
  isplitl [Hv0]; · iexact Hv0
  iexact H3

set_option backward.isDefEq.respectTransparency.types false in
/-- THE RUN. From any memory with zero counters every weakly fair execution of @main terminates, with every window's array
    as the write-backs left it and every other unscoped buffer at its final contents `Vfin`. -/
theorem run_main :
    θ_run defs (onTc (τ := τ) (main (F := F))) ⟨m, fun _ => 0, ρ⟩ (fun r => ∀ c : Dev nD,
      (∀ w, r.2.mem (((cfg0).spec w).arr.view.loc (c.tc : Thread nD τ)) = (dats m 0 c).arrAt w cfg0.N)
      ∧ ∀ b ∈ Pipeline.restRefsP sig Pipeline.Prefetch.none spec0, r.2.mem ((c.tc : Thread nD τ).loc b) = Vfin m c (Proc.devRef .tc b)) := by
  classical
  have phinj : Function.Injective (cellOf (nD := nD) (τ := τ) (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) (dats m) () phinj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells _ phinj) (Pipeline.launchToks _ phinj))
    (hu₀ := by
      iintro Hu; imodintro
      isplitl [Hu]; · iapply (show (ownU _ : sProp 𝕄) ⊢ BI.own (emb₁ (initOf (Pipeline.cells _ phinj) (Pipeline.launchToks _ phinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Vfin m c (Proc.devRef .tc b)))
    (hX := fun c => by
      iintro ⟨HU, -, -, -, Hp, -⟩; imodintro
      isplitl [Hp]; · iexists _; iexact Hp
      iexact HU)
    (hin := fun c => by
      dsimp only [dats]
      unfold Pipeline.ΦA
      iintro ⟨Hp, -, Hr⟩
      isplitl [Hr] <;> iassumption)
    (hout := fun c => by
      dsimp only [dats]
      rw [Pipeline.ownSems0_none]; unfold Pipeline.ΦA
      iintro ⟨Hr, Hp⟩
      isplitl [Hp]; · iexact Hp
      isplitr; · iempintro
      iexact Hr)
    (htail := fun c Q' => tail_run m c Q')
    (QY := fun c s => ∀ b ∈ Pipeline.restRefsP sig Pipeline.Prefetch.none spec0, s.mem ((c.tc : Thread nD τ).loc b) = Vfin m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Vfin m c (Proc.devRef .tc b)) s')
      isplitl [HU] <;> iassumption)
    (hQ := fun s h c => ⟨(h c).1, (h c).2.2⟩)

/-- The host lines before the region do not write the argument: it enters the region as launched. -/
theorem V_main_arg0 (c : Dev nD) : V m c main_arg0 = m ((c : Thread nD τ).loc main_arg0) := by
  show StableHlo.after (List.flatten [hostOps0]) (fun b => m (c, b)) (Proc.devRef .tc main_arg0) = _
  simp only [List.flatten_cons, List.flatten_nil, List.append_nil]
  exact StableHlo.after_of_forall_not_mem _ _ fun op hop => by
    simp only [hostOps0, List.mem_cons, List.mem_nil_iff, or_false] at hop
    rcases hop with rfl | rfl
    · rw [StableHlo.unary_writes, Finset.mem_singleton]; exact StableHlo.devRef_ne_of_ne (by decide)
    · rw [StableHlo.reshape_writes, Finset.mem_singleton]; exact StableHlo.devRef_ne_of_ne (by decide)

/-- The table the region reads: the reshape of the slice of the argument. -/
theorem V_main_v1 (c : Dev nD) :
    V m c main_v1 = shapeCast S512x260 (extractStridedSlice S1x512x260 ![0, 0, 0] (m ((c : Thread nD τ).loc main_arg0)) slices_S1x1024x260_S1x512x260_0_0_0)
      shapeCasts_S1x512x260_S512x260 := by
  show StableHlo.after (List.flatten [hostOps0]) (fun b => m (c, b)) (Proc.devRef .tc main_v1) = _
  simp only [List.flatten_cons, List.flatten_nil, List.append_nil]
  after_results
  rfl

/-- THE FRAME and THE RESULT off the run: the argument ends as launched, and @main's result is the reshape of the result
    array as the write-backs left it. -/
theorem run_read :
    θ_run defs (onTc (τ := τ) (main (F := F))) ⟨m, fun _ => 0, ρ⟩ (fun r => ∀ c : Dev nD,
      r.2.mem ((c.tc : Thread nD τ).loc main_v3)
          = shapeCast S1x262144x522 ((dats m 0 c).arrAt 2 cfg0.N) shapeCasts_S512x512x522_S1x262144x522
      ∧ r.2.mem ((c.tc : Thread nD τ).loc main_arg0) = m ((c.tc : Thread nD τ).loc main_arg0)) :=
  (θ_run defs _ _).mono (fun r h c =>
      ⟨((h c).2 main_v3 (by decide)).trans (Vfin_v3 m c),
       ((h c).2 main_arg0 (by decide)).trans (((Vfin_ne m c main_arg0 (by decide)).trans (Wexit_ne m c main_arg0 (by decide))).trans (V_main_arg0 m c))⟩)
    (run_main m ρ)

/-- THE FRAME: @main runs to its end and its argument ends unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run_read m ρ)

end Cert.KernelIdeal.Hand

end
-- ==== Proof.PairSpec.lean ====
/-
  The pairwise box table as one function of the item table.
  The table `x` has 512 rows of 260 entries; the last four entries of a row are a box
  (x1, y1, x2, y2) = entries 256, 257, 258, 259. For rows `r` (item i) and `s` (item j) the result
  row has 522 entries: `r` itself, then `s`, then the overlap of the two boxes divided by the
  area of `r`'s box, then the same overlap divided by the area of `s`'s box. The overlap is
  max 0 (min x2 − max x1) · max 0 (min y2 − max y1); the area (x2 − x1) · (y2 − y1).
  Every operation is the extended reals' own; the quotient is `Ideal.div`.
-/
import Idealize.ShloMosaic.PureOps.Ideal
import Idealize.ShloMosaic.Lib.ValueIdx

noncomputable section

namespace Cert.PairSpec

open Idealize.ShloMosaic Idealize.ShloMosaic.ValueIdx

/-- The item table's shape. -/
abbrev Tab : Shape := ⟨2, ![512, 260]⟩
/-- The pair table's shape. -/
abbrev Pairs : Shape := ⟨3, ![512, 512, 522]⟩

/-- The literal zero both programs clamp against. -/
def zero : EReal := Ideal.ofBits .f32 0x00000000#32

/-- The area of a row's box: (x2 − x1) · (y2 − y1). -/
def areaRow (r : Fin 260 → EReal) : EReal := (r 258 - r 256) * (r 259 - r 257)

/-- The overlap of two rows' boxes. -/
def interRows (r s : Fin 260 → EReal) : EReal :=
  max zero (min (r 258) (s 258) - max (r 256) (s 256)) * max zero (min (r 259) (s 259) - max (r 257) (s 257))

/-- Entry `k` of the result row of the pair of rows (`r`, `s`). -/
def entryRows (r s : Fin 260 → EReal) (k : Fin 522) : EReal :=
  if h : k.val < 260 then r ⟨k.val, h⟩
  else if h2 : k.val < 520 then s ⟨k.val - 260, by omega⟩
  else if k.val = 520 then Ideal.div (interRows r s) (areaRow r)
  else Ideal.div (interRows r s) (areaRow s)

/-- Row `i` of a table. -/
def row (x : Tab.Idx → EReal) (i : Fin 512) : Fin 260 → EReal := fun k => x (ix2 i k)

/-- The pair table of a table. -/
def pair (x : Tab.Idx → EReal) : Pairs.Idx → EReal :=
  fun y => entryRows (row x (y 0)) (row x (y 1)) (y 2)

theorem pair_ix3 (x : Tab.Idx → EReal) (i j : Fin 512) (k : Fin 522) :
    pair x (ix3 i j k) = entryRows (row x i) (row x j) k := rfl

end Cert.PairSpec

end
-- ==== Proof.LibUnitAxes.lean ====
/-
  Unit axes added, dropped and spread, read at an index given by its coordinates.
  A cast that adds or drops an axis of extent 1 keeps every entry where it was, and a broadcast
  along an axis of extent 1 repeats the operand along that axis: at an index the result is the
  operand at the index with the unit coordinate put at 0 (or dropped). Stated for any extents over
  the literal-rank index constructors `ix1`, `ix2`, `ix3`: a vector [a] as a column [a, 1] and back,
  a column [a, 1] spread to [a, b], a matrix [a, b] as [a, b, 1] and as [a, 1, b], an array
  [a, 1, c] spread to [a, b, c], an array [1, b, c] spread to [a, b, c].
-/
import Idealize.ShloMosaic.Lib.Pipeline.Value
import Idealize.ShloMosaic.Lib.ValueIdx

noncomputable section

namespace Cert.LibUnitAxes

open Idealize.ShloMosaic Idealize.ShloMosaic.ValueIdx

variable {α : Type}

/-- A vector [a] cast to a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] cast to a vector [a] reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A column [a, 1] spread to [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix [a, b] cast to [a, b, 1] reads, at (p, q, u), the matrix at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A matrix [a, b] cast to [a, 1, b] reads, at (p, u, q), the matrix at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An array [a, 1, c] spread to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An array [1, b, c] spread to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Cert.LibUnitAxes

end
-- ==== Proof.KernelIdeal.BlockIsPair.lean ====
/-
  The output block after the body, read at one index: the entry of the pair row of one row of the
  row block and one row of the table.

  The block [16, 512, 522] is written in three column bands. Band 0–259 is the row block with a
  unit middle axis spread over the 512 table rows, so at (a, j, c) it holds entry (a, c) of the row
  block. Band 260–519 is the table with a unit leading axis spread over the 16 block rows, so at
  (a, j, c) it holds entry (j, c) of the table. Band 520–521 is the two quotients laid side by side:
  the overlap of the boxes of row a and row j over the area of row a's box, and over the area of
  row j's box. The overlap and the areas are formed from the four box columns 256–259, cut out as
  vectors and spread along the rows (block row a) or along the columns (table row j) of a 16 × 512
  matrix. Every min, max, difference, product and quotient has the specification's operand order,
  so the proof only reads layout operations at an index.
-/
import proofs.«147439_j83811991814342_1_alg».proof.Proof.KernelIdeal.Stores
import proofs.«147439_j83811991814342_1_alg».proof.Proof.PairSpec
import proofs.«147439_j83811991814342_1_alg».proof.Proof.LibUnitAxes
import Idealize.ShloMosaic.Lib.Pipeline.Value
import Idealize.ShloMosaic.Lib.ValueLayout
import Idealize.ShloMosaic.Lib.ValueIdx

set_option maxRecDepth 16384

noncomputable section

namespace Cert.KernelIdeal.Hand

open Idealize.ShloMosaic Idealize.ShloMosaic.ValueIdx
open Cert.KernelIdeal Cert.KernelIdeal.Gen Cert.LibUnitAxes

/-! ## The box columns spread along the rows and along the columns of the 16 × 512 matrix -/

section Layout
variable {α : Type}
/-- A vector over the 16 block rows, made a column and spread along the rows of the 16 × 512 matrix:
    at (a, j), the vector at a. -/
theorem rowSpread_at (v : S16.Idx → α) (a : Fin 16) (j : Fin 512) :
    broadcastTo S16x512 (shapeCast S16x1 v shapeCasts_S16_S16x1) broadcasts_S16x1_S16x512 (ix2 a j) = v (ix1 a) :=
  (broadcastTo_a1_ab_apply _ _ a j).trans (shapeCast_a_a1_apply _ _ a (0 : Fin 1))

/-- A vector over the 512 table rows, made a row and spread along the columns of the 16 × 512 matrix:
    at (a, j), the vector at j. -/
theorem colSpread_at (v : S512.Idx → α) (a : Fin 16) (j : Fin 512) :
    broadcastTo S16x512 (shapeCast S1x512 v shapeCasts_S512_S1x512) broadcasts_S1x512_S16x512 (ix2 a j) = v (ix1 j) :=
  (broadcastTo_1b_ab_apply _ _ a j).trans (shapeCast_a_1a_apply _ _ (0 : Fin 1) j)

end Layout

/-! ## The payloads at an index -/

section Payloads

open Cert.PairSpec

variable (x0 : Vec Ideal S16x260 .f32) (x1 : Vec Ideal S512x260 .f32)

/-- The loaded row block, cast to its own shape, is itself. -/
theorem pay4_eq : k0_pay4 (F := Ideal) x0 = x0 := by
  unfold k0_pay4; exact shapeCast_self _ _

/-- The loaded table, cast to its own shape, is itself. -/
theorem pay5_eq : k0_pay5 (F := Ideal) x1 = x1 := by
  unfold k0_pay5; exact shapeCast_self _ _

/-- Column 256 of the row block as a vector: at a, the block's entry (a, 256). -/
theorem pay6_at (a : Fin 16) : k0_pay6 (F := Ideal) x0 (ix1 a) = x0 (ix2 a 256) := by
  unfold k0_pay6
  refine (shapeCast_a1_a_apply _ _ a).trans ?_
  refine (slice2_axis1_apply 256 _ _ a (0 : Fin 1) (256 : Fin 260) rfl).trans ?_
  rw [pay4_eq]

/-- Column 257 of the row block as a vector. -/
theorem pay7_at (a : Fin 16) : k0_pay7 (F := Ideal) x0 (ix1 a) = x0 (ix2 a 257) := by
  unfold k0_pay7
  refine (shapeCast_a1_a_apply _ _ a).trans ?_
  refine (slice2_axis1_apply 257 _ _ a (0 : Fin 1) (257 : Fin 260) rfl).trans ?_
  rw [pay4_eq]

/-- Column 258 of the row block as a vector. -/
theorem pay8_at (a : Fin 16) : k0_pay8 (F := Ideal) x0 (ix1 a) = x0 (ix2 a 258) := by
  unfold k0_pay8
  refine (shapeCast_a1_a_apply _ _ a).trans ?_
  refine (slice2_axis1_apply 258 _ _ a (0 : Fin 1) (258 : Fin 260) rfl).trans ?_
  rw [pay4_eq]

/-- Column 259 of the row block as a vector. -/
theorem pay9_at (a : Fin 16) : k0_pay9 (F := Ideal) x0 (ix1 a) = x0 (ix2 a 259) := by
  unfold k0_pay9
  refine (shapeCast_a1_a_apply _ _ a).trans ?_
  refine (slice2_axis1_apply 259 _ _ a (0 : Fin 1) (259 : Fin 260) rfl).trans ?_
  rw [pay4_eq]

/-- Column 256 of the table as a vector: at j, the table's entry (j, 256). -/
theorem pay10_at (j : Fin 512) : k0_pay10 (F := Ideal) x1 (ix1 j) = x1 (ix2 j 256) := by
  unfold k0_pay10
  refine (shapeCast_a1_a_apply _ _ j).trans ?_
  refine (slice2_axis1_apply 256 _ _ j (0 : Fin 1) (256 : Fin 260) rfl).trans ?_
  rw [pay5_eq]

/-- Column 257 of the table as a vector. -/
theorem pay11_at (j : Fin 512) : k0_pay11 (F := Ideal) x1 (ix1 j) = x1 (ix2 j 257) := by
  unfold k0_pay11
  refine (shapeCast_a1_a_apply _ _ j).trans ?_
  refine (slice2_axis1_apply 257 _ _ j (0 : Fin 1) (257 : Fin 260) rfl).trans ?_
  rw [pay5_eq]

/-- Column 258 of the table as a vector. -/
theorem pay12_at (j : Fin 512) : k0_pay12 (F := Ideal) x1 (ix1 j) = x1 (ix2 j 258) := by
  unfold k0_pay12
  refine (shapeCast_a1_a_apply _ _ j).trans ?_
  refine (slice2_axis1_apply 258 _ _ j (0 : Fin 1) (258 : Fin 260) rfl).trans ?_
  rw [pay5_eq]

/-- Column 259 of the table as a vector. -/
theorem pay13_at (j : Fin 512) : k0_pay13 (F := Ideal) x1 (ix1 j) = x1 (ix2 j 259) := by
  unfold k0_pay13
  refine (shapeCast_a1_a_apply _ _ j).trans ?_
  refine (slice2_axis1_apply 259 _ _ j (0 : Fin 1) (259 : Fin 260) rfl).trans ?_
  rw [pay5_eq]

/-- The block rows' area vector at a: the area of row a's box. -/
theorem pay14_at (a : Fin 16) :
    k0_pay14 (F := Ideal) x0 (ix1 a) = areaRow (fun c => x0 (ix2 a c)) := by
  unfold k0_pay14
  show (k0_pay8 (F := Ideal) x0 (ix1 a) - k0_pay6 (F := Ideal) x0 (ix1 a))
      * (k0_pay9 (F := Ideal) x0 (ix1 a) - k0_pay7 (F := Ideal) x0 (ix1 a)) = _
  rw [pay6_at, pay7_at, pay8_at, pay9_at]
  rfl

/-- The table rows' area vector at j: the area of row j's box. -/
theorem pay15_at (j : Fin 512) :
    k0_pay15 (F := Ideal) x1 (ix1 j) = areaRow (fun c => x1 (ix2 j c)) := by
  unfold k0_pay15
  show (k0_pay12 (F := Ideal) x1 (ix1 j) - k0_pay10 (F := Ideal) x1 (ix1 j))
      * (k0_pay13 (F := Ideal) x1 (ix1 j) - k0_pay11 (F := Ideal) x1 (ix1 j)) = _
  rw [pay10_at, pay11_at, pay12_at, pay13_at]
  rfl

/-- The 16 × 512 overlap matrix at (a, j): the overlap of the boxes of block row a and table row j. -/
theorem pay16_at (a : Fin 16) (j : Fin 512) :
    k0_pay16 (F := Ideal) x0 x1 (ix2 a j) = interRows (fun c => x0 (ix2 a c)) (fun c => x1 (ix2 j c)) := by
  unfold k0_pay16
  simp only [mulf_apply, maximumf_apply, subf_apply, minimumf_apply, broadcast_apply, rowSpread_at, colSpread_at,
    pay6_at, pay7_at, pay8_at, pay9_at, pay10_at, pay11_at, pay12_at, pay13_at]
  rfl

end Payloads

/-! ## The three stored payloads at an index -/

section Stored

open Cert.PairSpec

/-- The row block with a unit middle axis spread over the table rows: at (a, j, c), the block's (a, c). -/
theorem pay1_at (v1 : FVec Ideal S16x260 .f32) (a : Fin 16) (j : Fin 512) (c : Fin 260) :
    k0_pay1 (F := Ideal) v1 (ix3 a j c) = v1 (ix2 a c) := by
  unfold k0_pay1
  refine (broadcastTo_a1c_abc_apply _ _ a j c).trans ?_
  refine (congrFun (shapeCast_self _ _) _).trans ?_
  exact shapeCast_ab_a1b_apply _ _ a (0 : Fin 1) c

/-- The table with a unit leading axis spread over the block rows: at (a, j, c), the table's (j, c). -/
theorem pay2_at (v3 : FVec Ideal S512x260 .f32) (a : Fin 16) (j : Fin 512) (c : Fin 260) :
    k0_pay2 (F := Ideal) v3 (ix3 a j c) = v3 (ix2 j c) := by
  unfold k0_pay2
  refine (broadcastTo_1bc_abc_apply _ _ a j c).trans ?_
  refine (congrFun (shapeCast_self _ _) _).trans ?_
  exact shapeCast_ab_1ab_apply _ _ (0 : Fin 1) j c

/-- The two quotients side by side, first column: at (a, j, 0), the matrix entry (a, j) over the block
    rows' vector at a. -/
theorem pay3_at0 (v22 : FVec Ideal S16 .f32) (v25 : FVec Ideal S512 .f32) (v52 : FVec Ideal S16x512 .f32)
    (a : Fin 16) (j : Fin 512) :
    k0_pay3 (F := Ideal) v22 v25 v52 (ix3 a j (0 : Fin 2)) = Ideal.div (v52 (ix2 a j)) (v22 (ix1 a)) := by
  unfold k0_pay3
  refine (concatenate_pair_apply_left (t := S16x512x2) (s₁ := S16x512x1) (s₂ := S16x512x1) 2 _ _ _ (ix3 a j (0 : Fin 2)) rfl (ix3 a j (0 : Fin 1))
    (fun b => ?_)).trans ?_
  · match b with
    | ⟨0, _⟩ => rfl
    | ⟨1, _⟩ => rfl
    | ⟨2, _⟩ => rfl
  · refine (shapeCast_ab_ab1_apply _ _ a j (0 : Fin 1)).trans ?_
    rw [divf_apply, rowSpread_at]

/-- Second column: at (a, j, 1), the matrix entry (a, j) over the table rows' vector at j. -/
theorem pay3_at1 (v22 : FVec Ideal S16 .f32) (v25 : FVec Ideal S512 .f32) (v52 : FVec Ideal S16x512 .f32)
    (a : Fin 16) (j : Fin 512) :
    k0_pay3 (F := Ideal) v22 v25 v52 (ix3 a j (1 : Fin 2)) = Ideal.div (v52 (ix2 a j)) (v25 (ix1 j)) := by
  unfold k0_pay3
  refine (concatenate_pair_apply_right (t := S16x512x2) (s₁ := S16x512x1) (s₂ := S16x512x1) 2 _ _ _ (ix3 a j (1 : Fin 2)) rfl rfl (ix3 a j (0 : Fin 1))
    (fun b hb => ?_) rfl).trans ?_
  · match b with
    | ⟨0, _⟩ => rfl
    | ⟨1, _⟩ => rfl
    | ⟨2, _⟩ => exact absurd rfl hb
  · refine (shapeCast_ab_ab1_apply _ _ a j (0 : Fin 1)).trans ?_
    rw [divf_apply, colSpread_at]

end Stored

/-! ## The three bands read back as one function -/

section Bands

/-- The block holding band 0–259 from pa, band 260–519 from pb and band 520–521 from pc reads, at column k,
    pa below 260, pb below 520 (260 columns further back), pc's first column at 520 and its second at 521. -/
theorem canon3_at (pa pb : Vec Ideal S16x512x260 .f32) (pc : Vec Ideal S16x512x2 .f32)
    (a : Fin 16) (j : Fin 512) (k : Fin 522) :
    View.canon ([⟨rTail, pc⟩, ⟨rMid, pb⟩, ⟨rLeft, pa⟩] : List (View.Piece (Elt Ideal) S16x512x522 .f32)) (ix3 a j k)
      = if h1 : k.val < 260 then pa (ix3 a j ⟨k.val, h1⟩)
        else if h2 : k.val < 520 then pb (ix3 a j ⟨k.val - 260, by omega⟩)
        else if k.val = 520 then pc (ix3 a j (0 : Fin 2))
        else pc (ix3 a j (1 : Fin 2)) := by
  have hk : k.val < 522 := k.isLt
  have notTail : k.val < 520 → ix3 a j k ∉ rTail.set := fun hlt hm => by
    have h := (Rect.mem_set_unit.mp hm ⟨2, by decide⟩).1
    change 520 ≤ k.val at h
    omega
  have notMid : k.val < 260 → ix3 a j k ∉ rMid.set := fun hlt hm => by
    have h := (Rect.mem_set_unit.mp hm ⟨2, by decide⟩).1
    change 260 ≤ k.val at h
    omega
  by_cases h1 : k.val < 260
  · rw [dif_pos h1]
    refine (View.canon_cons_of_not_mem (⟨rTail, pc⟩ : View.Piece (Elt Ideal) S16x512x522 .f32) [(⟨rMid, pb⟩ : View.Piece (Elt Ideal) S16x512x522 .f32), (⟨rLeft, pa⟩ : View.Piece (Elt Ideal) S16x512x522 .f32)] (notTail (by omega))).trans ?_
    refine (View.canon_cons_of_not_mem (⟨rMid, pb⟩ : View.Piece (Elt Ideal) S16x512x522 .f32) [(⟨rLeft, pa⟩ : View.Piece (Elt Ideal) S16x512x522 .f32)] (notMid h1)).trans ?_
    have e : ix3 a j k = rLeft.emb (ix3 a j (⟨k.val, h1⟩ : Fin 260)) := funext fun d => Fin.ext (by
      match d with
      | ⟨0, _⟩ => show a.val = 0 + 1 * a.val; omega
      | ⟨1, _⟩ => show j.val = 0 + 1 * j.val; omega
      | ⟨2, _⟩ => show k.val = 0 + 1 * k.val; omega)
    rw [e]
    exact View.canon_cons_emb rLeft pa [] _
  · rw [dif_neg h1]
    by_cases h2 : k.val < 520
    · rw [dif_pos h2]
      refine (View.canon_cons_of_not_mem (⟨rTail, pc⟩ : View.Piece (Elt Ideal) S16x512x522 .f32) [(⟨rMid, pb⟩ : View.Piece (Elt Ideal) S16x512x522 .f32), (⟨rLeft, pa⟩ : View.Piece (Elt Ideal) S16x512x522 .f32)] (notTail h2)).trans ?_
      have e : ix3 a j k = rMid.emb (ix3 a j (⟨k.val - 260, by omega⟩ : Fin 260)) := funext fun d => Fin.ext (by
        match d with
        | ⟨0, _⟩ => show a.val = 0 + 1 * a.val; omega
        | ⟨1, _⟩ => show j.val = 0 + 1 * j.val; omega
        | ⟨2, _⟩ => show k.val = 260 + 1 * (k.val - 260); omega)
      rw [e]
      exact View.canon_cons_emb rMid pb _ _
    · rw [dif_neg h2]
      by_cases h3 : k.val = 520
      · rw [if_pos h3]
        have e : ix3 a j k = rTail.emb (ix3 a j (0 : Fin 2)) := funext fun d => Fin.ext (by
          match d with
          | ⟨0, _⟩ => show a.val = 0 + 1 * a.val; omega
          | ⟨1, _⟩ => show j.val = 0 + 1 * j.val; omega
          | ⟨2, _⟩ => show k.val = 520 + 1 * 0; omega)
        rw [e]
        exact View.canon_cons_emb rTail pc _ _
      · rw [if_neg h3]
        have e : ix3 a j k = rTail.emb (ix3 a j (1 : Fin 2)) := funext fun d => Fin.ext (by
          match d with
          | ⟨0, _⟩ => show a.val = 0 + 1 * a.val; omega
          | ⟨1, _⟩ => show j.val = 0 + 1 * j.val; omega
          | ⟨2, _⟩ => show k.val = 520 + 1 * 1; omega)
        rw [e]
        exact View.canon_cons_emb rTail pc _ _

end Bands

/-! ## The result -/

/-- The whole row block read through its full rectangle is the row block. -/
theorem ld_rRow (x0 : Vec Ideal S16x260 .f32) : View.ld (Val := Elt Ideal) x0 rRow = x0 :=
  View.ld_unit_zero (funext fun a => by match a with | ⟨0, _⟩ => rfl | ⟨1, _⟩ => rfl) _ x0

/-- The whole table read through its full rectangle is the table. -/
theorem ld_rTab (x1 : Vec Ideal S512x260 .f32) : View.ld (Val := Elt Ideal) x1 rTab = x1 :=
  View.ld_unit_zero (funext fun a => by match a with | ⟨0, _⟩ => rfl | ⟨1, _⟩ => rfl) _ x1

/-- **The output block after the body, at (a, j, k), is entry k of the pair row of row a of the row block
    and row j of the table.** -/
theorem blockOut_apply (x0 : Vec Ideal Cert.KernelIdeal.S16x260 .f32) (x1 : Vec Ideal Cert.KernelIdeal.S512x260 .f32)
    (a : Fin 16) (j : Fin 512) (k : Fin 522) :
    blockOut (F := Ideal) x0 x1 (ValueIdx.ix3 a j k)
      = Cert.PairSpec.entryRows (fun c => x0 (ValueIdx.ix2 a c)) (fun c => x1 (ValueIdx.ix2 j c)) k := by
  unfold blockOut pieces
  rw [ld_rRow, ld_rTab]
  refine (canon3_at _ _ _ a j k).trans ?_
  unfold Cert.PairSpec.entryRows
  by_cases h1 : k.val < 260
  · rw [dif_pos h1, dif_pos h1, pay1_at, pay4_eq]
  · rw [dif_neg h1, dif_neg h1]
    by_cases h2 : k.val < 520
    · rw [dif_pos h2, dif_pos h2, pay2_at, pay5_eq]
    · rw [dif_neg h2, dif_neg h2]
      by_cases h3 : k.val = 520
      · rw [if_pos h3, if_pos h3, pay3_at0, pay16_at, pay14_at]
      · rw [if_neg h3, if_neg h3, pay3_at1, pay16_at, pay15_at]

end Cert.KernelIdeal.Hand

end
-- ==== Proof.KernelIdeal.Final.lean ====
/-
  From the blocks to the array, and the kernel's run read as a value. Point `t` of the grid
  writes back the 16 leading rows 16·t … 16·t + 15 of the result array; those 32 blocks tile it;
  and what point `t` writes is the pair table's block: row `a` of the row block the body loads
  is row 16·t + a of the table, the table window holds the whole table, and the body's output
  block is the pair rows of those. So the result array ends as the pair table of the table the
  region reads, which is the reshaped slice of @main's argument.
-/
import proofs.«147439_j83811991814342_1_alg».proof.Proof.KernelIdeal.Run
import proofs.«147439_j83811991814342_1_alg».proof.Proof.KernelIdeal.BlockIsPair
import proofs.«147439_j83811991814342_1_alg».proof.Proof.PairSpec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The printed index maps, decided over the 32 grid points: the row-block window and the output window are at block
    `t` of the leading axis and block 0 of the others; the table window is at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of the pair table of the table the region reads: row `a` of the row block
    is row 16·t + a of the table, the table window holds the whole table, and the body's block is the pair rows of those. -/
theorem flushed_eq (c : Dev nD) (t : Fin cfg0.N) :
    (dats m 0 c).flushed 2 t = ((cfg0.win 2).blk t).view.read (Elt Ideal) (Cert.PairSpec.pair (V m c main_v1)) := by
  show (cfg0.win 2).cut (grid0.coords t) ((dats m 0 c).after 2 t) = _
  rw [after0_2]
  obtain ⟨e00, e01, e10, e11, e20, e21, e22⟩ := idx_facts t
  have ht : t.val < 32 := by have h := t.isLt; have hN : cfg0.N = 32 := N_0; omega
  funext j
  obtain ⟨a, b, k, rfl⟩ : ∃ (a : Fin 16) (b : Fin 512) (k : Fin 522), j = ix3 a b k := ⟨j 0, j 1, j 2, eq_ix3 j⟩
  show blockOut (iblk m c 0 t) (iblk m c 1 t) (ix3 a b k) = Cert.PairSpec.pair (V m c main_v1) (((cfg0.win 2).blk t).view.emb (ix3 a b k))
  refine (blockOut_apply (iblk m c 0 t) (iblk m c 1 t) a b k).trans ?_
  have ha : a.val < 16 := a.isLt
  have hemb : ((cfg0.win 2).blk t).view.emb (ix3 a b k) = ix3 (⟨t.val * 16 + a.val, by omega⟩ : Fin 512) b k := by
    funext d; apply Fin.ext
    match d with
    | ⟨0, _⟩ => show win0_2.index t (0 : Fin 3) * 16 + 1 * a.val = t.val * 16 + a.val; omega
    | ⟨1, _⟩ => show win0_2.index t (1 : Fin 3) * 512 + 1 * b.val = b.val; omega
    | ⟨2, _⟩ => show win0_2.index t (2 : Fin 3) * 522 + 1 * k.val = k.val; omega
  rw [hemb, Cert.PairSpec.pair_ix3]
  have hrow0 : (fun c' : Fin 260 => iblk m c 0 t (ix2 a c')) = Cert.PairSpec.row (V m c main_v1) (⟨t.val * 16 + a.val, by omega⟩ : Fin 512) := by
    funext c'
    show V m c main_v1 (((cfg0.win 0).blk t).view.emb (ix2 a c')) = V m c main_v1 (ix2 (⟨t.val * 16 + a.val, by omega⟩ : Fin 512) c')
    refine congrArg _ ?_
    funext d; apply Fin.ext
    match d with
    | ⟨0, _⟩ => show win0_0.index t (0 : Fin 2) * 16 + 1 * a.val = t.val * 16 + a.val; omega
    | ⟨1, _⟩ => show win0_0.index t (1 : Fin 2) * 260 + 1 * c'.val = c'.val; omega
  have hrow1 : (fun c' : Fin 260 => iblk m c 1 t (ix2 b c')) = Cert.PairSpec.row (V m c main_v1) b := by
    funext c'
    show V m c main_v1 (((cfg0.win 1).blk t).view.emb (ix2 b c')) = V m c main_v1 (ix2 b c')
    refine congrArg _ ?_
    funext d; apply Fin.ext
    match d with
    | ⟨0, _⟩ => show win0_1.index t (0 : Fin 2) * 512 + 1 * b.val = b.val; omega
    | ⟨1, _⟩ => show win0_1.index t (1 : Fin 2) * 260 + 1 * c'.val = c'.val; omega
  rw [hrow0, hrow1]

/-- An index of the result array is in point `t`'s block iff each coordinate is in the block's range on its axis. -/
theorem mem_blk (t : Fin cfg0.N) (i : S512x512x522.Idx) :
    i ∈ ((cfg0.win 2).blk t).view.set ↔ ∀ a : Fin 3, win0_2.index t a * S16x512x522.size a ≤ (i a).val ∧ (i a).val < win0_2.index t a * S16x512x522.size a + S16x512x522.size a := by
  show i ∈ ((View.whole main_v2).slice (win0_2.rect t)).set ↔ _
  rw [View.set_slice_whole, Rect.mem_set_unit]
  exact Iff.rfl

/-- The 32 blocks of 16 leading rows cover the result array: row `r` is in the block of point `r / 16`. -/
theorem covered (i : S512x512x522.Idx) : ∃ t : Fin cfg0.N, (cfg0.win 2).flush t = true ∧ i ∈ ((cfg0.win 2).blk t).view.set := by
  have hi0 : (i 0).val < 512 := (i 0).isLt
  have hi1 : (i 1).val < 512 := (i 1).isLt
  have hi2 : (i 2).val < 522 := (i 2).isLt
  have hN : cfg0.N = 32 := N_0
  refine ⟨⟨(i 0).val / 16, by omega⟩, flush0_2 _, ?_⟩
  rw [mem_blk]
  obtain ⟨-, -, -, -, e20, e21, e22⟩ := idx_facts ⟨(i 0).val / 16, by omega⟩
  intro a
  match a with
  | ⟨0, _⟩ => show win0_2.index _ (0 : Fin 3) * 16 ≤ (i 0).val ∧ (i 0).val < win0_2.index _ (0 : Fin 3) * 16 + 16; rw [e20]; show (i 0).val / 16 * 16 ≤ (i 0).val ∧ (i 0).val < (i 0).val / 16 * 16 + 16; omega
  | ⟨1, _⟩ => show win0_2.index _ (1 : Fin 3) * 512 ≤ (i 1).val ∧ (i 1).val < win0_2.index _ (1 : Fin 3) * 512 + 512; rw [e21]; omega
  | ⟨2, _⟩ => show win0_2.index _ (2 : Fin 3) * 522 ≤ (i 2).val ∧ (i 2).val < win0_2.index _ (2 : Fin 3) * 522 + 522; rw [e22]; omega

/-- THE RESULT ARRAY after the run is the pair table of the table the region reads. -/
theorem final_pair (c : Dev nD) : (dats m 0 c).arrAt 2 cfg0.N = Cert.PairSpec.pair (V m c main_v1) :=
  (dats m 0 c).arrAt_eq_of_cover 2 _ (fun t _ => flushed_eq m c t) (covered)

/-- THE KERNEL'S RUN, read: @main's result is the reshape of the pair table of the reshaped slice of the argument, and the
    argument ends as launched. -/
theorem value_run :
    θ_run defs (onTc (τ := τ) (main (F := Ideal))) ⟨m, fun _ => 0, ρ⟩ (fun r => ∀ c : Dev nD,
      r.2.mem ((c.tc : Thread nD τ).loc main_v3)
          = shapeCast S1x262144x522 (Cert.PairSpec.pair (shapeCast S512x260
              (extractStridedSlice S1x512x260 ![0, 0, 0] (m ((c : Thread nD τ).loc main_arg0)) slices_S1x1024x260_S1x512x260_0_0_0)
              shapeCasts_S1x512x260_S512x260)) shapeCasts_S512x512x522_S1x262144x522
      ∧ r.2.mem ((c.tc : Thread nD τ).loc main_arg0) = m ((c.tc : Thread nD τ).loc main_arg0)) :=
  (θ_run defs _ _).mono (fun r h c => ⟨by rw [(h c).1, final_pair m c, V_main_v1], (h c).2⟩) (run_read m ρ)

end Cert.KernelIdeal.Hand

end
-- ==== Proof.RefIsPair.lean ====
/-
  The reference's 512 × 512 × 522 array, before its final reshape, is the pair table of its own
  512 × 260 item table.

  The item table is the first 512 rows of the argument. The reference cuts the four box columns
  256, 257, 258, 259 out of it as vectors, forms the area vector and, by broadcasting the vectors
  along rows and along columns, the 512 × 512 overlap matrix; it divides the overlap by the area of
  the row's item and by the area of the column's item; and it lays item i, item j and the two
  quotients side by side along the last axis. Every step is read at one index: a layout operation
  names the operand's index, an arithmetic operation acts entry by entry. The operand order of every
  min, max, difference, product and quotient is the specification's own, so no law of arithmetic is
  used.
-/
import proofs.«147439_j83811991814342_1_alg».proof.Proof.Gen.ReferenceIdeal.Read
import proofs.«147439_j83811991814342_1_alg».proof.Proof.PairSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.PairSpec
open Idealize.ShloMosaic Idealize.ShloMosaic.ValueIdx

/-! ## Indices from the values of their coordinates -/

/-- A rank-1 index is the one built from a coordinate with the same value. -/
theorem ix1_of_val {n : Nat} (f : (⟨1, ![n]⟩ : Shape).Idx) (a : Fin n) (h0 : (f 0).val = a.val) : f = ix1 a := by
  funext d; match d with | ⟨0, _⟩ => exact Fin.ext h0

/-- A rank-2 index is the one built from coordinates with the same values. -/
theorem ix2_of_val {n0 n1 : Nat} (f : (⟨2, ![n0, n1]⟩ : Shape).Idx) (a : Fin n0) (b : Fin n1)
    (h0 : (f 0).val = a.val) (h1 : (f 1).val = b.val) : f = ix2 a b := by
  funext d; match d with | ⟨0, _⟩ => exact Fin.ext h0 | ⟨1, _⟩ => exact Fin.ext h1

/-! ## A concatenation of two 260-wide and two 1-wide pieces along the last axis, at an index -/

/-- The four-piece concatenation along the last axis reads, at column k, the first piece below 260, the
    second below 520 (260 columns further back), the third at 520 and the fourth at 521. -/
theorem concat4_at {α : Type} (A B : S512x512x260.Idx → α) (C D : S512x512x1.Idx → α)
    (h : Shape.Concatenates [S512x512x260, S512x512x260, S512x512x1, S512x512x1] S512x512x522 2)
    (i j : Fin 512) (k : Fin 522) :
    concatenate S512x512x522 2 [⟨S512x512x260, A⟩, ⟨S512x512x260, B⟩, ⟨S512x512x1, C⟩, ⟨S512x512x1, D⟩] h (ix3 i j k)
      = if h1 : k.val < 260 then A (ix3 i j ⟨k.val, h1⟩)
        else if h2 : k.val < 520 then B (ix3 i j ⟨k.val - 260, by omega⟩)
        else if k.val = 520 then C (ix3 i j (0 : Fin 1))
        else D (ix3 i j (0 : Fin 1)) := by
  have hk : k.val < 522 := k.isLt
  by_cases h1 : k.val < 260
  · rw [dif_pos h1]
    refine concatenate_apply_piece (t := S512x512x522) 2 [⟨S512x512x260, A⟩, ⟨S512x512x260, B⟩, ⟨S512x512x1, C⟩, ⟨S512x512x1, D⟩] h (ix3 i j k) 0 (by simp) S512x512x260 A rfl rfl 0 rfl
      (ix3 i j ⟨k.val, h1⟩) (fun b hb => ?_) (by show 0 + k.val = k.val; omega)
    match b with
    | ⟨0, _⟩ => rfl
    | ⟨1, _⟩ => rfl
    | ⟨2, _⟩ => exact absurd rfl hb
  · rw [dif_neg h1]
    by_cases h2 : k.val < 520
    · rw [dif_pos h2]
      refine concatenate_apply_piece (t := S512x512x522) 2 [⟨S512x512x260, A⟩, ⟨S512x512x260, B⟩, ⟨S512x512x1, C⟩, ⟨S512x512x1, D⟩] h (ix3 i j k) 1 (by simp) S512x512x260 B rfl rfl 260 rfl
        (ix3 i j ⟨k.val - 260, by omega⟩) (fun b hb => ?_) (by show 260 + (k.val - 260) = k.val; omega)
      match b with
      | ⟨0, _⟩ => rfl
      | ⟨1, _⟩ => rfl
      | ⟨2, _⟩ => exact absurd rfl hb
    · rw [dif_neg h2]
      by_cases h3 : k.val = 520
      · rw [if_pos h3]
        refine concatenate_apply_piece (t := S512x512x522) 2 [⟨S512x512x260, A⟩, ⟨S512x512x260, B⟩, ⟨S512x512x1, C⟩, ⟨S512x512x1, D⟩] h (ix3 i j k) 2 (by simp) S512x512x1 C rfl rfl 520 rfl
          (ix3 i j (0 : Fin 1)) (fun b hb => ?_) (by show 520 + 0 = k.val; omega)
        match b with
        | ⟨0, _⟩ => rfl
        | ⟨1, _⟩ => rfl
        | ⟨2, _⟩ => exact absurd rfl hb
      · rw [if_neg h3]
        refine concatenate_apply_piece (t := S512x512x522) 2 [⟨S512x512x260, A⟩, ⟨S512x512x260, B⟩, ⟨S512x512x1, C⟩, ⟨S512x512x1, D⟩] h (ix3 i j k) 3 (by simp) S512x512x1 D rfl rfl 521 rfl
          (ix3 i j (0 : Fin 1)) (fun b hb => ?_) (by show 521 + 0 = k.val; omega)
        match b with
        | ⟨0, _⟩ => rfl
        | ⟨1, _⟩ => rfl
        | ⟨2, _⟩ => exact absurd rfl hb

/-! ## The four box columns, as vectors, read at an item -/

section Columns

variable (x0 : (⟨S1x1024x260, .f32⟩ : BufTy).Contents (Elt Ideal))

/-- The vector cut from column 256 (the boxes' x1) holds, at item i, the table's entry (i, 256). -/
theorem col256_at (i : Fin 512) :
    val_main_v3 (F := Ideal) x0 (ix1 i) = row (val_main_v1 (F := Ideal) x0) i 256 := by
  rw [val_main_v3_apply, val_main_v2_apply]
  exact congrArg (val_main_v1 (F := Ideal) x0) (ix2_of_val _ i 256 (by show i.val / 1 = i.val; omega) rfl)

/-- The vector cut from column 257 (y1) holds, at item i, the table's entry (i, 257). -/
theorem col257_at (i : Fin 512) :
    val_main_v5 (F := Ideal) x0 (ix1 i) = row (val_main_v1 (F := Ideal) x0) i 257 := by
  rw [val_main_v5_apply, val_main_v4_apply]
  exact congrArg (val_main_v1 (F := Ideal) x0) (ix2_of_val _ i 257 (by show i.val / 1 = i.val; omega) rfl)

/-- The vector cut from column 258 (x2) holds, at item i, the table's entry (i, 258). -/
theorem col258_at (i : Fin 512) :
    val_main_v7 (F := Ideal) x0 (ix1 i) = row (val_main_v1 (F := Ideal) x0) i 258 := by
  rw [val_main_v7_apply, val_main_v6_apply]
  exact congrArg (val_main_v1 (F := Ideal) x0) (ix2_of_val _ i 258 (by show i.val / 1 = i.val; omega) rfl)

/-- The vector cut from column 259 (y2) holds, at item i, the table's entry (i, 259). -/
theorem col259_at (i : Fin 512) :
    val_main_v9 (F := Ideal) x0 (ix1 i) = row (val_main_v1 (F := Ideal) x0) i 259 := by
  rw [val_main_v9_apply, val_main_v8_apply]
  exact congrArg (val_main_v1 (F := Ideal) x0) (ix2_of_val _ i 259 (by show i.val / 1 = i.val; omega) rfl)

/-- The area vector at item i is the area of row i's box. -/
theorem area_at (i : Fin 512) :
    val_main_v12 (F := Ideal) x0 (ix1 i) = areaRow (row (val_main_v1 (F := Ideal) x0) i) := by
  rw [val_main_v12_apply, val_main_v10_apply, val_main_v11_apply, col258_at, col256_at, col259_at, col257_at]
  rfl

/-! ## A vector spread along the rows, or along the columns, of a 512 × 512 matrix -/

/-- x2 spread along the rows reads, at (i, j), x2 of item i. -/
theorem v15_at (i j : Fin 512) : val_main_v15 (F := Ideal) x0 (ix2 i j) = val_main_v7 (F := Ideal) x0 (ix1 i) := by
  rw [val_main_v15_apply, val_main_v13_apply]; exact congrArg _ (ix1_of_val _ i rfl)
/-- x2 spread along the columns reads, at (i, j), x2 of item j. -/
theorem v16_at (i j : Fin 512) : val_main_v16 (F := Ideal) x0 (ix2 i j) = val_main_v7 (F := Ideal) x0 (ix1 j) := by
  rw [val_main_v16_apply, val_main_v14_apply]; exact congrArg _ (ix1_of_val _ j rfl)
/-- x1 spread along the rows reads, at (i, j), x1 of item i. -/
theorem v20_at (i j : Fin 512) : val_main_v20 (F := Ideal) x0 (ix2 i j) = val_main_v3 (F := Ideal) x0 (ix1 i) := by
  rw [val_main_v20_apply, val_main_v18_apply]; exact congrArg _ (ix1_of_val _ i rfl)
/-- x1 spread along the columns reads, at (i, j), x1 of item j. -/
theorem v21_at (i j : Fin 512) : val_main_v21 (F := Ideal) x0 (ix2 i j) = val_main_v3 (F := Ideal) x0 (ix1 j) := by
  rw [val_main_v21_apply, val_main_v19_apply]; exact congrArg _ (ix1_of_val _ j rfl)
/-- y2 spread along the rows reads, at (i, j), y2 of item i. -/
theorem v28_at (i j : Fin 512) : val_main_v28 (F := Ideal) x0 (ix2 i j) = val_main_v9 (F := Ideal) x0 (ix1 i) := by
  rw [val_main_v28_apply, val_main_v26_apply]; exact congrArg _ (ix1_of_val _ i rfl)
/-- y2 spread along the columns reads, at (i, j), y2 of item j. -/
theorem v29_at (i j : Fin 512) : val_main_v29 (F := Ideal) x0 (ix2 i j) = val_main_v9 (F := Ideal) x0 (ix1 j) := by
  rw [val_main_v29_apply, val_main_v27_apply]; exact congrArg _ (ix1_of_val _ j rfl)
/-- y1 spread along the rows reads, at (i, j), y1 of item i. -/
theorem v33_at (i j : Fin 512) : val_main_v33 (F := Ideal) x0 (ix2 i j) = val_main_v5 (F := Ideal) x0 (ix1 i) := by
  rw [val_main_v33_apply, val_main_v31_apply]; exact congrArg _ (ix1_of_val _ i rfl)
/-- y1 spread along the columns reads, at (i, j), y1 of item j. -/
theorem v34_at (i j : Fin 512) : val_main_v34 (F := Ideal) x0 (ix2 i j) = val_main_v5 (F := Ideal) x0 (ix1 j) := by
  rw [val_main_v34_apply, val_main_v32_apply]; exact congrArg _ (ix1_of_val _ j rfl)
/-- The area spread along the rows reads, at (i, j), the area of item i. -/
theorem v41_at (i j : Fin 512) : val_main_v41 (F := Ideal) x0 (ix2 i j) = val_main_v12 (F := Ideal) x0 (ix1 i) := by
  rw [val_main_v41_apply, val_main_v40_apply]; exact congrArg _ (ix1_of_val _ i rfl)
/-- The area spread along the columns reads, at (i, j), the area of item j. -/
theorem v44_at (i j : Fin 512) : val_main_v44 (F := Ideal) x0 (ix2 i j) = val_main_v12 (F := Ideal) x0 (ix1 j) := by
  rw [val_main_v44_apply, val_main_v43_apply]; exact congrArg _ (ix1_of_val _ j rfl)

/-! ## The overlap matrix and the two quotients -/

/-- The overlap matrix at (i, j) is the overlap of the boxes of rows i and j. -/
theorem inter_at (i j : Fin 512) :
    val_main_v39 (F := Ideal) x0 (ix2 i j)
      = interRows (row (val_main_v1 (F := Ideal) x0) i) (row (val_main_v1 (F := Ideal) x0) j) := by
  rw [val_main_v39_apply, val_main_v25_apply, val_main_v38_apply, val_main_v24_apply, val_main_v37_apply,
    val_main_cst_apply, val_main_cst_0_apply, val_main_v23_apply, val_main_v36_apply, val_main_v17_apply,
    val_main_v22_apply, val_main_v30_apply, val_main_v35_apply, v15_at, v16_at, v20_at, v21_at, v28_at, v29_at,
    v33_at, v34_at]
  simp only [col256_at, col257_at, col258_at, col259_at]
  rfl

/-- The first quotient at (i, j): the overlap over the area of row i's box. -/
theorem ratio_i_at (i j : Fin 512) :
    val_main_v42 (F := Ideal) x0 (ix2 i j)
      = Ideal.div (interRows (row (val_main_v1 (F := Ideal) x0) i) (row (val_main_v1 (F := Ideal) x0) j))
          (areaRow (row (val_main_v1 (F := Ideal) x0) i)) := by
  rw [val_main_v42_apply, inter_at, v41_at, area_at]
  rfl

/-- The second quotient at (i, j): the overlap over the area of row j's box. -/
theorem ratio_j_at (i j : Fin 512) :
    val_main_v45 (F := Ideal) x0 (ix2 i j)
      = Ideal.div (interRows (row (val_main_v1 (F := Ideal) x0) i) (row (val_main_v1 (F := Ideal) x0) j))
          (areaRow (row (val_main_v1 (F := Ideal) x0) j)) := by
  rw [val_main_v45_apply, inter_at, v44_at, area_at]
  rfl

/-! ## The four bands of the result row -/

/-- Item i spread over all j: at (i, j, c), the table's entry (i, c). -/
theorem v47_at (i j : Fin 512) (c : Fin 260) :
    val_main_v47 (F := Ideal) x0 (ix3 i j c) = row (val_main_v1 (F := Ideal) x0) i c := by
  rw [val_main_v47_apply, val_main_v46_apply]
  exact congrArg (val_main_v1 (F := Ideal) x0) (ix2_of_val _ i c rfl rfl)

/-- Item j spread over all i: at (i, j, c), the table's entry (j, c). -/
theorem v49_at (i j : Fin 512) (c : Fin 260) :
    val_main_v49 (F := Ideal) x0 (ix3 i j c) = row (val_main_v1 (F := Ideal) x0) j c := by
  rw [val_main_v49_apply, val_main_v48_apply]
  exact congrArg (val_main_v1 (F := Ideal) x0) (ix2_of_val _ j c rfl rfl)

/-- The first quotient with a unit last axis: at (i, j, 0), the quotient at (i, j). -/
theorem v50_at (i j : Fin 512) (u : Fin 1) :
    val_main_v50 (F := Ideal) x0 (ix3 i j u) = val_main_v42 (F := Ideal) x0 (ix2 i j) := by
  rw [val_main_v50_apply]
  exact congrArg (val_main_v42 (F := Ideal) x0) (ix2_of_val _ i j rfl rfl)

/-- The second quotient with a unit last axis: at (i, j, 0), the quotient at (i, j). -/
theorem v51_at (i j : Fin 512) (u : Fin 1) :
    val_main_v51 (F := Ideal) x0 (ix3 i j u) = val_main_v45 (F := Ideal) x0 (ix2 i j) := by
  rw [val_main_v51_apply]
  exact congrArg (val_main_v45 (F := Ideal) x0) (ix2_of_val _ i j rfl rfl)

/-! ## The result -/

/-- The concatenated array at (i, j, k) is entry k of the result row of rows i and j of the item table. -/
theorem ref_at (i j : Fin 512) (k : Fin 522) :
    val_main_v52 (F := Ideal) x0 (ix3 i j k)
      = entryRows (row (val_main_v1 (F := Ideal) x0) i) (row (val_main_v1 (F := Ideal) x0) j) k := by
  unfold val_main_v52
  rw [concat4_at]
  unfold entryRows
  by_cases h1 : k.val < 260
  · rw [dif_pos h1, dif_pos h1, v47_at]
  · rw [dif_neg h1, dif_neg h1]
    by_cases h2 : k.val < 520
    · rw [dif_pos h2, dif_pos h2, v49_at]
    · rw [dif_neg h2, dif_neg h2]
      by_cases h3 : k.val = 520
      · rw [if_pos h3, if_pos h3, v50_at, ratio_i_at]
      · rw [if_neg h3, if_neg h3, v51_at, ratio_j_at]

end Columns

/-- **The reference's array before its final reshape is the pair table of its item table.** -/
theorem ref_is_pair (x0 : (⟨Cert.ReferenceIdeal.S1x1024x260, .f32⟩ : BufTy).Contents (Elt Ideal)) :
    Cert.ReferenceIdeal.Read.val_main_v52 (F := Ideal) x0
      = Cert.PairSpec.pair (Cert.ReferenceIdeal.Read.val_main_v1 (F := Ideal) x0) := by
  funext y
  have e := eq_ix3 y
  rw [e]
  exact ref_at x0 (y 0) (y 1) (y 2)

end Cert.ReferenceIdeal.RefValue

end
-- ==== Proof.lean ====
/-
  The certificate of a pairwise box table: for 512 items of 260 numbers, whose last four numbers
  are a box (x1, y1, x2, y2), the row of the pair (i, j) is item i, item j, and the overlap of the
  two boxes divided by the area of box i and by the area of box j.

  The kernel computes the table in 32 grid points of 16 leading rows each: a window over the 16
  rows of the point and a window over the whole table read ONE array (the reshaped slice of the
  argument), and an output window writes the point's 16 × 512 × 522 block; a final reshape
  flattens the two leading axes. The reference broadcasts the four box columns along rows and
  columns, divides, concatenates and reshapes. Both are the function `Cert.PairSpec.pair` of the
  table, index by index, with the same operand order in every operation: at the ideal instance
  nothing but the reading of layouts separates them, and the precondition is not used.

  Frames. The kernel's two programs are run by the launch of one region whose input windows share
  an array (Proof/KernelIdeal/Run.lean and its word-level copy Proof/Kernel/Run.lean): the
  array's share is halved between the two windows. The reference's frame is its run with the
  result dropped. The idealization rewrote nothing, so the kernel and its idealization are one
  text and `preserves` is trivial.
-/
import proofs.«147439_j83811991814342_1_alg».proof.Defs
import proofs.«147439_j83811991814342_1_alg».proof.Proof.Gen.Kernel
import proofs.«147439_j83811991814342_1_alg».proof.Proof.Gen.Kernel.Skeleton
import proofs.«147439_j83811991814342_1_alg».proof.Proof.Gen.Kernel.Launch
import proofs.«147439_j83811991814342_1_alg».proof.Proof.Gen.Kernel.Points
import proofs.«147439_j83811991814342_1_alg».proof.Proof.Gen.KernelIdeal
import proofs.«147439_j83811991814342_1_alg».proof.Proof.Gen.KernelIdeal.Skeleton
import proofs.«147439_j83811991814342_1_alg».proof.Proof.Gen.KernelIdeal.Launch
import proofs.«147439_j83811991814342_1_alg».proof.Proof.Gen.KernelIdeal.Points
import proofs.«147439_j83811991814342_1_alg».proof.Proof.Gen.ReferenceIdeal
import proofs.«147439_j83811991814342_1_alg».proof.Proof.Gen.Pre_finite_inputs
import proofs.«147439_j83811991814342_1_alg».proof.Proof.Gen.ReferenceIdeal.Read
import proofs.«147439_j83811991814342_1_alg».proof.Proof.Kernel.Run
import proofs.«147439_j83811991814342_1_alg».proof.Proof.KernelIdeal.Final
import proofs.«147439_j83811991814342_1_alg».proof.Proof.RefIsPair
import Idealize.ShloMosaic.Adequacy
import Idealize.ShloMosaic.Init

noncomputable section

namespace Cert.Proof

open Idealize.ShloMosaic Idealize.SL.Sem

/-- The word-level kernel runs to its end with its argument unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal instance both programs end with the reshape of the pair table of the reshaped slice of the argument. -/
theorem algebraic : Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, hagree c]
  unfold Cert.ReferenceIdeal.Read.val_main_v53
  rw [Cert.ReferenceIdeal.RefValue.ref_is_pair]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
